-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S48x24x8x512 : Shape := ⟨4, ![48, 24, 8, 512]⟩
abbrev S96x24x8x512 : Shape := ⟨4, ![96, 24, 8, 512]⟩
abbrev S2048x192 : Shape := ⟨2, ![2048, 192]⟩
abbrev S2048 : Shape := ⟨1, ![2048]⟩
abbrev S1x2048 : Shape := ⟨2, ![1, 2048]⟩
abbrev S1 : Shape := ⟨1, ![1]⟩
abbrev S_ : Shape := ⟨0, ![]⟩

class Facts : Prop where
  bcast_S_S48x24x8x512 : S_.BroadcastsInDim S48x24x8x512 (![] : Fin 0 → Fin S48x24x8x512.rank)
  reducesTo_S48x24x8x512_S_d0_1_2_3 : S48x24x8x512.ReducesTo [0, 1, 2, 3] S_
  h_S_ : 0 < S_.numel
  bcast_S_S96x24x8x512 : S_.BroadcastsInDim S96x24x8x512 (![] : Fin 0 → Fin S96x24x8x512.rank)
  reducesTo_S96x24x8x512_S_d0_1_2_3 : S96x24x8x512.ReducesTo [0, 1, 2, 3] S_
  bcast_S_S2048x192 : S_.BroadcastsInDim S2048x192 (![] : Fin 0 → Fin S2048x192.rank)
  reducesTo_S2048x192_S_d0_1 : S2048x192.ReducesTo [0, 1] S_
  bcast_S_S2048 : S_.BroadcastsInDim S2048 (![] : Fin 0 → Fin S2048.rank)
  reducesTo_S2048_S_d0 : S2048.ReducesTo [0] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg17 : FVec F S1 .f32) (main_v100 : IVec S_ 1) (main_cst_40 : FVec F S_ .f32) : IVec S_ 1 :=
  let main_v101 : FVec F S1 .f32 := broadcastInDim S1 ![] bcast_S_S1 main_cst_40
  let main_v102 : FVec F S1 .f32 := addf main_arg17 main_v101
  let main_cst_41 : FVec F S_ .f32 := constant S_ .f32 0x00000000#32
  let main_v103 : FVec F S1 .f32 := broadcastInDim S1 ![] bcast_S_S1 main_cst_41
  let main_v104 : IVec S1 1 := cmpf .ogt main_v102 main_v103
  let main_c_42 : IVec S_ 1 := constantI S_ 1 1#1
  let main_v105 : IVec S_ 1 := (fun x v => Host.reduce IntOp.andi x v reducesTo_S1_S_d0 h_S_) main_v104 main_c_42
  let main_v106 : IVec S_ 1 := andi main_v100 main_v105
  main_v106

def fn_part5 {F : FTy → Type} [FloatOps F] (main_arg9 : FVec F S1 .f32) (main_arg13 : FVec F S2048 .f32) (main_arg17 : FVec F S1 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_cst_34 : FVec F S_ .f32 := constant S_ .f32 0x3727C5AC#32
  let main_v89 : FVec F S1 .f32 := broadcastInDim S1 ![] bcast_S_S1 main_cst_34
  let main_v90 : FVec F S1 .f32 := addf main_arg9 main_v89
  let main_cst_35 : FVec F S_ .f32 := constant S_ .f32 0x00000000#32
  let main_v91 : FVec F S1 .f32 := broadcastInDim S1 ![] bcast_S_S1 main_cst_35
  let main_v92 : IVec S1 1 := cmpf .ogt main_v90 main_v91
  let main_c_36 : IVec S_ 1 := constantI S_ 1 1#1
  let main_v93 : IVec S_ 1 := (fun x v => Host.reduce IntOp.andi x v reducesTo_S1_S_d0 h_S_) main_v92 main_c_36
  let main_v94 : IVec S_ 1 := andi main_v88 main_v93
  let main_cst_37 : FVec F S_ .f32 := constant S_ .f32 0x3727C5AC#32
  let main_v95 : FVec F S2048 .f32 := broadcastInDim S2048 ![] bcast_S_S2048 main_cst_37
  let main_v96 : FVec F S2048 .f32 := addf main_arg13 main_v95
  let main_cst_38 : FVec F S_ .f32 := constant S_ .f32 0x00000000#32
  let main_v97 : FVec F S2048 .f32 := broadcastInDim S2048 ![] bcast_S_S2048 main_cst_38
  let main_v98 : IVec S2048 1 := cmpf .ogt main_v96 main_v97
  let main_c_39 : IVec S_ 1 := constantI S_ 1 1#1
  let main_v99 : IVec S_ 1 := (fun x v => Host.reduce IntOp.andi x v reducesTo_S2048_S_d0 h_S_) main_v98 main_c_39
  let main_v100 : IVec S_ 1 := andi main_v94 main_v99
  let main_cst_40 : FVec F S_ .f32 := constant S_ .f32 0x3727C5AC#32
  fn_part6 (F := F) main_arg17 main_v100 main_cst_40

def fn_part4 {F : FTy → Type} [FloatOps F] (main_arg9 : FVec F S1 .f32) (main_arg13 : FVec F S2048 .f32) (main_arg14 : FVec F S1 .f32) (main_arg15 : FVec F S1 .f32) (main_arg16 : FVec F S1 .f32) (main_arg17 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg9 main_arg13 main_arg17 main_v83 main_v84 main_cst_32

def fn_part3 {F : FTy → Type} [FloatOps F] (main_arg9 : FVec F S1 .f32) (main_arg11 : FVec F S2048 .f32) (main_arg12 : FVec F S2048 .f32) (main_arg13 : FVec F S2048 .f32) (main_arg14 : FVec F S1 .f32) (main_arg15 : FVec F S1 .f32) (main_arg16 : FVec F S1 .f32) (main_arg17 : FVec F S1 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg9 main_arg13 main_arg14 main_arg15 main_arg16 main_arg17 main_v63 main_v67

def fn_part2 {F : FTy → Type} [FloatOps F] (main_arg7 : FVec F S1 .f32) (main_arg8 : FVec F S1 .f32) (main_arg9 : FVec F S1 .f32) (main_arg10 : FVec F S2048 .f32) (main_arg11 : FVec F S2048 .f32) (main_arg12 : FVec F S2048 .f32) (main_arg13 : FVec F S2048 .f32) (main_arg14 : FVec F S1 .f32) (main_arg15 : FVec F S1 .f32) (main_arg16 : FVec F S1 .f32) (main_arg17 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg9 main_arg11 main_arg12 main_arg13 main_arg14 main_arg15 main_arg16 main_arg17 main_v48 main_v49 main_v50

def fn_part1 {F : FTy → Type} [FloatOps F] (main_arg4 : FVec F S1x2048 .f32) (main_arg5 : FVec F S1 .f32) (main_arg6 : FVec F S1 .f32) (main_arg7 : FVec F S1 .f32) (main_arg8 : FVec F S1 .f32) (main_arg9 : FVec F S1 .f32) (main_arg10 : FVec F S2048 .f32) (main_arg11 : FVec F S2048 .f32) (main_arg12 : FVec F S2048 .f32) (main_arg13 : FVec F S2048 .f32) (main_arg14 : FVec F S1 .f32) (main_arg15 : FVec F S1 .f32) (main_arg16 : FVec F S1 .f32) (main_arg17 : FVec F S1 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S48x24x8x512 .f32) (main_arg1 : FVec F S96x24x8x512 .f32) (main_arg2 : FVec F S2048x192 .f32) (main_arg3 : FVec F S2048 .f32) (main_arg4 : FVec F S1x2048 .f32) (main_arg5 : FVec F S1 .f32) (main_arg6 : FVec F S1 .f32) (main_arg7 : FVec F S1 .f32) (main_arg8 : FVec F S1 .f32) (main_arg9 : FVec F S1 .f32) (main_arg10 : FVec F S2048 .f32) (main_arg11 : FVec F S2048 .f32) (main_arg12 : FVec F S2048 .f32) (main_arg13 : FVec F S2048 .f32) (main_arg14 : FVec F S1 .f32) (main_arg15 : FVec F S1 .f32) (main_arg16 : FVec F S1 .f32) (main_arg17 : FVec F S1 .f32) : IVec S_ 1 :=
  let main_v0 : FVec F S48x24x8x512 .f32 := Host.absf main_arg0
  let main_cst : FVec F S_ .f32 := constant S_ .f32 0x7F800000#32
  let main_v1 : FVec F S48x24x8x512 .f32 := broadcastInDim S48x24x8x512 ![] bcast_S_S48x24x8x512 main_cst
  let main_v2 : IVec S48x24x8x512 1 := cmpf .olt main_v0 main_v1
  let main_c : IVec S_ 1 := constantI S_ 1 1#1
  let main_v3 : IVec S_ 1 := (fun x v => Host.reduce IntOp.andi x v reducesTo_S48x24x8x512_S_d0_1_2_3 h_S_) main_v2 main_c
  let main_v4 : FVec F S96x24x8x512 .f32 := Host.absf main_arg1
  let main_cst_0 : FVec F S_ .f32 := constant S_ .f32 0x7F800000#32
  let main_v5 : FVec F S96x24x8x512 .f32 := broadcastInDim S96x24x8x512 ![] bcast_S_S96x24x8x512 main_cst_0
  let main_v6 : IVec S96x24x8x512 1 := cmpf .olt main_v4 main_v5
  let main_c_1 : IVec S_ 1 := constantI S_ 1 1#1
  let main_v7 : IVec S_ 1 := (fun x v => Host.reduce IntOp.andi x v reducesTo_S96x24x8x512_S_d0_1_2_3 h_S_) main_v6 main_c_1
  let main_v8 : IVec S_ 1 := andi main_v3 main_v7
  let main_v9 : FVec F S2048x192 .f32 := Host.absf main_arg2
  let main_cst_2 : FVec F S_ .f32 := constant S_ .f32 0x7F800000#32
  let main_v10 : FVec F S2048x192 .f32 := broadcastInDim S2048x192 ![] bcast_S_S2048x192 main_cst_2
  let main_v11 : IVec S2048x192 1 := cmpf .olt main_v9 main_v10
  let main_c_3 : IVec S_ 1 := constantI S_ 1 1#1
  let main_v12 : IVec S_ 1 := (fun x v => Host.reduce IntOp.andi x v reducesTo_S2048x192_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S48x24x8x512 : Shape := ⟨4, ![48, 24, 8, 512]⟩
abbrev S96x24x8x512 : Shape := ⟨4, ![96, 24, 8, 512]⟩
abbrev S2048x192 : Shape := ⟨2, ![2048, 192]⟩
abbrev S2048 : Shape := ⟨1, ![2048]⟩
abbrev S1x2048 : Shape := ⟨2, ![1, 2048]⟩
abbrev S1 : Shape := ⟨1, ![1]⟩
abbrev S48x192x512 : Shape := ⟨3, ![48, 192, 512]⟩
abbrev S96x192x512 : Shape := ⟨3, ![96, 192, 512]⟩
abbrev S96x48x192 : Shape := ⟨3, ![96, 48, 192]⟩
abbrev S1x192x512 : Shape := ⟨3, ![1, 192, 512]⟩
abbrev S1x48x192 : Shape := ⟨3, ![1, 48, 192]⟩
abbrev S192x512 : Shape := ⟨2, ![192, 512]⟩
abbrev S9216x512 : Shape := ⟨2, ![9216, 512]⟩
abbrev S512x192 : Shape := ⟨2, ![512, 192]⟩
abbrev S9216x192 : Shape := ⟨2, ![9216, 192]⟩
abbrev S48x192x192 : Shape := ⟨3, ![48, 192, 192]⟩
abbrev S48x192 : Shape := ⟨2, ![48, 192]⟩
abbrev S48x96x192 : Shape := ⟨3, ![48, 96, 192]⟩
abbrev S4608x192 : Shape := ⟨2, ![4608, 192]⟩
abbrev S_ : Shape := ⟨0, ![]⟩
abbrev S1x1 : Shape := ⟨2, ![1, 1]⟩
abbrev S192x2048 : Shape := ⟨2, ![192, 2048]⟩
abbrev S2048x1 : Shape := ⟨2, ![2048, 1]⟩
abbrev S4608x1 : Shape := ⟨2, ![4608, 1]⟩
abbrev S768x192 : Shape := ⟨2, ![768, 192]⟩
abbrev S768x1 : Shape := ⟨2, ![768, 1]⟩
abbrev S768x2048 : Shape := ⟨2, ![768, 2048]⟩
abbrev S48x96 : Shape := ⟨2, ![48, 96]⟩

abbrev nBuf : Space → Nat
  | .hbm => 61
  | .vmem => 23
  | .smem => 0
  | _ => 0

abbrev bufTy : (tb : Table) → Fin (tcTables nBuf tb) → BufTy
  | .hbm, ⟨0, _⟩ => ⟨S48x24x8x512, .f32⟩
  | .hbm, ⟨1, _⟩ => ⟨S96x24x8x512, .f32⟩
  | .hbm, ⟨2, _⟩ => ⟨S2048x192, .f32⟩
  | .hbm, ⟨3, _⟩ => ⟨S2048, .f32⟩
  | .hbm, ⟨4, _⟩ => ⟨S1x2048, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S48x192x512, .f32⟩
  | .hbm, ⟨19, _⟩ => ⟨S96x192x512, .f32⟩
  | .hbm, ⟨20, _⟩ => ⟨S48x192x512, .bf16⟩
  | .hbm, ⟨21, _⟩ => ⟨S96x192x512, .bf16⟩
  | .hbm, ⟨22, _⟩ => ⟨S96x48x192, .f32⟩
  | .hbm, ⟨23, _⟩ => ⟨S96x48x192, .f32⟩
  | .hbm, ⟨24, _⟩ => ⟨S48x96x192, .f32⟩
  | .hbm, ⟨25, _⟩ => ⟨S4608x192, .f32⟩
  | .hbm, ⟨26, _⟩ => ⟨S48x96x192, .f32⟩
  | .hbm, ⟨27, _⟩ => ⟨S4608x192, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S1, .f32⟩
  | .hbm, ⟨32, _⟩ => ⟨S1, .f32⟩
  | .hbm, ⟨33, _⟩ => ⟨S1, .f32⟩
  | .hbm, ⟨34, _⟩ => ⟨S1, .f32⟩
  | .hbm, ⟨35, _⟩ => ⟨S1x1, .f32⟩
  | .hbm, ⟨36, _⟩ => ⟨S1x1, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S1x2048, .f32⟩
  | .hbm, ⟨45, _⟩ => ⟨S1x2048, .f32⟩
  | .hbm, ⟨46, _⟩ => ⟨S_, .f32⟩
  | .hbm, ⟨47, _⟩ => ⟨S1, .f32⟩
  | .hbm, ⟨48, _⟩ => ⟨S1, .f32⟩
  | .hbm, ⟨49, _⟩ => ⟨S1, .f32⟩
  | .hbm, ⟨50, _⟩ => ⟨S1, .f32⟩
  | .hbm, ⟨51, _⟩ => ⟨S1, .f32⟩
  | .hbm, ⟨52, _⟩ => ⟨S1, .f32⟩
  | .hbm, ⟨53, _⟩ => ⟨S1x1, .f32⟩
  | .hbm, ⟨54, _⟩ => ⟨S1x1, .f32⟩
  | .hbm, ⟨55, _⟩ => ⟨S192x2048, .f32⟩
  | .hbm, ⟨56, _⟩ => ⟨S1x2048, .f32⟩
  | .hbm, ⟨57, _⟩ => ⟨S2048x1, .f32⟩
  | .hbm, ⟨58, _⟩ => ⟨S1x1, .f32⟩
  | .hbm, ⟨59, _⟩ => ⟨S4608x1, .f32⟩
  | .hbm, ⟨60, _⟩ => ⟨S48x96, .f32⟩
  | .local _ .vmem, ⟨0, _⟩ => ⟨S48x192x512, .bf16⟩
  | .local _ .vmem, ⟨1, _⟩ => ⟨S1x192x512, .bf16⟩
  | .local _ .vmem, ⟨2, _⟩ => ⟨S1x192x512, .bf16⟩
  | .local _ .vmem, ⟨3, _⟩ => ⟨S1x48x192, .f32⟩
  | .local _ .vmem, ⟨4, _⟩ => ⟨S1x48x192, .f32⟩
  | .local _ .vmem, ⟨5, _⟩ => ⟨S1x48x192, .f32⟩
  | .local _ .vmem, ⟨6, _⟩ => ⟨S1x48x192, .f32⟩
  | .local _ .vmem, ⟨7, _⟩ => ⟨S768x192, .f32⟩
  | .local _ .vmem, ⟨8, _⟩ => ⟨S768x192, .f32⟩
  | .local _ .vmem, ⟨9, _⟩ => ⟨S768x192, .f32⟩
  | .local _ .vmem, ⟨10, _⟩ => ⟨S768x192, .f32⟩
  | .local _ .vmem, ⟨11, _⟩ => ⟨S192x2048, .f32⟩
  | .local _ .vmem, ⟨12, _⟩ => ⟨S1x2048, .f32⟩
  | .local _ .vmem, ⟨13, _⟩ => ⟨S2048x1, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | .local _ .vmem, ⟨17, _⟩ => ⟨S1x2048, .f32⟩
  | .local _ .vmem, ⟨18, _⟩ => ⟨S1x2048, .f32⟩
  | .local _ .vmem, ⟨19, _⟩ => ⟨S1x1, .f32⟩
  | .local _ .vmem, ⟨20, _⟩ => ⟨S1x1, .f32⟩
  | .local _ .vmem, ⟨21, _⟩ => ⟨S768x1, .f32⟩
  | .local _ .vmem, ⟨22, _⟩ => ⟨S768x1, .f32⟩
  | _, _ => ⟨S48x24x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4_0 : Ref sig .tc := ⟨.hbm, 22, rfl⟩
abbrev main_v4_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg12_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem12_1 : DmaSem sig := 22

abbrev nD : Nat := 1
abbrev τ : Topo := Topo.v7x

variable {F : FTy → Type} [FloatOps F]

abbrev grid0 : Pipeline.Grid := ⟨1, ![96], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S48x192x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x48x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x48x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S768x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S768x192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S192x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x2048 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S768x1 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  shapeCasts_S48x24x8x512_S48x192x512 : S48x24x8x512.ShapeCasts S48x192x512
  shapeCasts_S96x24x8x512_S96x192x512 : S96x24x8x512.ShapeCasts S96x192x512
  bitsLt_bf16_f32 : FTy.bits .bf16 < FTy.bits .f32
  inb_S48x192x512_S48x192x512_0_0_0 : ∀ a, (![0, 0, 0] : Fin 3 → Nat) a + S48x192x512.size a ≤ S48x192x512.size a
  h_S48x192x512 : 0 < S48x192x512.numel
  shapeCasts_S48x192x512_S48x192x512 : S48x192x512.ShapeCasts S48x192x512
  inb_S1x192x512_S1x192x512_0_0_0 : ∀ a, (![0, 0, 0] : Fin 3 → Nat) a + S1x192x512.size a ≤ S1x192x512.size a
  h_S1x192x512 : 0 < S1x192x512.numel
  shapeCasts_S1x192x512_S192x512 : S1x192x512.ShapeCasts S192x512
  shapeCasts_S48x192x512_S9216x512 : S48x192x512.ShapeCasts S9216x512
  transposes_S192x512_p1_0_S512x192 : S192x512.Transposes [1, 0] S512x192
  shapeCasts_S9216x192_S48x192x192 : S9216x192.ShapeCasts S48x192x192
  reduces_S48x192x192_S48x192 : S48x192x192.Reduces [2] S48x192
  inb_S1x48x192_S1x48x192_0_0_0 : ∀ a, (![0, 0, 0] : Fin 3 → Nat) a + S1x48x192.size a ≤ S1x48x192.size a
  h_S1x48x192 : 0 < S1x48x192.numel
  shapeCasts_S1x48x192_S48x192 : S1x48x192.ShapeCasts S48x192
  shapeCasts_S48x192_S1x48x192 : S48x192.ShapeCasts S1x48x192
  reduces_S48x192x192_S48x192_2 : S48x192x192.Reduces [1] S48x192
  transposes_S96x48x192_S48x96x192_1_0_2 : S96x48x192.Transposes [1, 0, 2] S48x96x192
  shapeCasts_S48x96x192_S4608x192 : S48x96x192.ShapeCasts S4608x192
  bcast_S_S1 : S_.BroadcastsInDim S1 (![] : Fin 0 → Fin S1.rank)
  shapeCasts_S1_S1x1 : S1.ShapeCasts S1x1
  bcast_S_S2048 : S_.BroadcastsInDim S2048 (![] : Fin 0 → Fin S2048.rank)
  shapeCasts_S2048_S1x2048 : S2048.ShapeCasts S1x2048
  transposes_S2048x192_S192x2048_1_0 : S2048x192.Transposes [1, 0] S192x2048
  transposes_S1x2048_S2048x1_1_0 : S1x2048.Transposes [1, 0] S2048x1
  inb_S192x2048_S192x2048_0_0 : ∀ a, (![0, 0] : Fin 2 → Nat) a + S192x2048.size a ≤ S192x2048.size a
  h_S192x2048 : 0 < S192x2048.numel
  shapeCasts_S192x2048_S192x2048 : S192x2048.ShapeCasts S192x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S768x192_S768x192_0_0 : ∀ a, (![0, 0] : Fin 2 → Nat) a + S768x192.size a ≤ S768x192.size a
  h_S768x192 : 0 < S768x192.numel
  shapeCasts_S768x192_S768x192 : S768x192.ShapeCasts S768x192
  broadcasts_S1x1_S768x192 : S1x1.Broadcasts S768x192
  broadcasts_S1x2048_S768x2048 : S1x2048.Broadcasts S768x2048
  broadcasts_S1x1_S768x1 : S1x1.Broadcasts S768x1
  inb_S768x1_S768x1_0_0 : ∀ a, (![0, 0] : Fin 2 → Nat) a + S768x1.size a ≤ S768x1.size a
  h_S768x1 : 0 < S768x1.numel
  shapeCasts_S4608x1_S48x96 : S4608x1.ShapeCasts S48x96
  dot_S9216x512_S512x192_S9216x192_1_0_0_1_n_n_wf : DotDims.WF S9216x512 S512x192 S9216x192 [1] [0] [0] [1] [] []
  dot_S768x192_S192x2048_S768x2048_1_0_0_1_n_n_wf : DotDims.WF S768x192 S192x2048 S768x2048 [1] [0] [0] [1] [] []
  dot_S768x2048_S2048x1_S768x1_1_0_0_1_n_n_wf : DotDims.WF S768x2048 S2048x1 S768x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S48x192x512.size a ≤ S48x192x512.size a
  hwx0_0 : ∀ i : grid0.Coords, EltTy.bits .bf16 = 32 ∨ (Rect.block (s := S48x192x512) S48x192x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x192x512.size a ≤ S96x192x512.size a
  hwx0_1 : ∀ i : grid0.Coords, EltTy.bits .bf16 = 32 ∨ (Rect.block (s := S96x192x512) S1x192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x48x192.size a ≤ S96x48x192.size a
  hwx0_2 : ∀ i : grid0.Coords, EltTy.bits .f32 = 32 ∨ (Rect.block (s := S96x48x192) S1x48x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x48x192.size a ≤ S96x48x192.size a
  hwx0_3 : ∀ i : grid0.Coords, EltTy.bits .f32 = 32 ∨ (Rect.block (s := S96x48x192) S1x48x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S768x192.size a ≤ S4608x192.size a
  hwx1_0 : ∀ i : grid1.Coords, EltTy.bits .f32 = 32 ∨ (Rect.block (s := S4608x192) S768x192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S768x192.size a ≤ S4608x192.size a
  hwx1_1 : ∀ i : grid1.Coords, EltTy.bits .f32 = 32 ∨ (Rect.block (s := S4608x192) S768x192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x2048.size a ≤ S192x2048.size a
  hwx1_2 : ∀ i : grid1.Coords, EltTy.bits .f32 = 32 ∨ (Rect.block (s := S192x2048) S192x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S2048x1.size a
  hwx1_4 : ∀ i : grid1.Coords, EltTy.bits .f32 = 32 ∨ (Rect.block (s := S2048x1) S2048x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2048.size a ≤ S1x2048.size a
  hwx1_8 : ∀ i : grid1.Coords, EltTy.bits .f32 = 32 ∨ (Rect.block (s := S1x2048) S1x2048.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x2048.size a ≤ S1x2048.size a
  hwx1_9 : ∀ i : grid1.Coords, EltTy.bits .f32 = 32 ∨ (Rect.block (s := S1x2048) S1x2048.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1.size a ≤ S1x1.size a
  hwx1_10 : ∀ i : grid1.Coords, EltTy.bits .f32 = 32 ∨ (Rect.block (s := S1x1) S1x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S768x1.size a ≤ S4608x1.size a
  hwx1_12 : ∀ i : grid1.Coords, EltTy.bits .f32 = 32 ∨ (Rect.block (s := S4608x1) S768x1.size (cc1_transform_12 i) (hinb1_12 i)).WholeWords (EltTy.packing .f32)

variable [Facts₀]

def dot_S9216x512_S512x192_S9216x192_1_0_0_1_n_n : DotDims S9216x512 S512x192 S9216x192 where
  lhsContracting := [1]
  rhsContracting := [0]
  lhsNonContracting := [0]
  rhsNonContracting := [1]
  lhsBatch := []
  rhsBatch := []
  wf := dot_S9216x512_S512x192_S9216x192_1_0_0_1_n_n_wf
def dot_S768x192_S192x2048_S768x2048_1_0_0_1_n_n : DotDims S768x192 S192x2048 S768x2048 where
  lhsContracting := [1]
  rhsContracting := [0]
  lhsNonContracting := [0]
  rhsNonContracting := [1]
  lhsBatch := []
  rhsBatch := []
  wf := dot_S768x192_S192x2048_S768x2048_1_0_0_1_n_n_wf
def dot_S768x2048_S2048x1_S768x1_1_0_0_1_n_n : DotDims S768x2048 S2048x1 S768x1 where
  lhsContracting := [1]
  rhsContracting := [0]
  lhsNonContracting := [0]
  rhsNonContracting := [1]
  lhsBatch := []
  rhsBatch := []
  wf := dot_S768x2048_S2048x1_S768x1_1_0_0_1_n_n_wf

abbrev win0_0 : Pipeline.Window sig grid0 :=
  Pipeline.Window.ofSpec (Memref.whole main_v2) S48x192x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x192x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S1x48x192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S1x48x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S768x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S768x192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S192x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S2048x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v23) S1x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v24) S1x2048.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v31) S1x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v32) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v37) S768x1.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S48x24x8x512 : Shape := ⟨4, ![48, 24, 8, 512]⟩
abbrev S96x24x8x512 : Shape := ⟨4, ![96, 24, 8, 512]⟩
abbrev S2048x192 : Shape := ⟨2, ![2048, 192]⟩
abbrev S2048 : Shape := ⟨1, ![2048]⟩
abbrev S1x2048 : Shape := ⟨2, ![1, 2048]⟩
abbrev S1 : Shape := ⟨1, ![1]⟩
abbrev S48x192x512 : Shape := ⟨3, ![48, 192, 512]⟩
abbrev S96x192x512 : Shape := ⟨3, ![96, 192, 512]⟩
abbrev S96x192x48x192 : Shape := ⟨4, ![96, 192, 48, 192]⟩
abbrev S48x96x192x192 : Shape := ⟨4, ![48, 96, 192, 192]⟩
abbrev S4608x192x192 : Shape := ⟨3, ![4608, 192, 192]⟩
abbrev S_ : Shape := ⟨0, ![]⟩
abbrev S4608x192 : Shape := ⟨2, ![4608, 192]⟩
abbrev S4608x384 : Shape := ⟨2, ![4608, 384]⟩
abbrev S9216x192 : Shape := ⟨2, ![9216, 192]⟩
abbrev S1x1 : Shape := ⟨2, ![1, 1]⟩
abbrev S192x2048 : Shape := ⟨2, ![192, 2048]⟩
abbrev S9216x2048 : Shape := ⟨2, ![9216, 2048]⟩
abbrev S2048x1 : Shape := ⟨2, ![2048, 1]⟩
abbrev S9216x1 : Shape := ⟨2, ![9216, 1]⟩
abbrev S4608x2 : Shape := ⟨2, ![4608, 2]⟩
abbrev S4608 : Shape := ⟨1, ![4608]⟩
abbrev S4608x1 : Shape := ⟨2, ![4608, 1]⟩
abbrev S48x96 : Shape := ⟨2, ![48, 96]⟩

abbrev nBuf : Space → Nat
  | .hbm => 89
  | .vmem => 0
  | .smem => 0
  | _ => 0

abbrev bufTy : (tb : Table) → Fin (tcTables nBuf tb) → BufTy
  | .hbm, ⟨0, _⟩ => ⟨S48x24x8x512, .f32⟩
  | .hbm, ⟨1, _⟩ => ⟨S96x24x8x512, .f32⟩
  | .hbm, ⟨2, _⟩ => ⟨S2048x192, .f32⟩
  | .hbm, ⟨3, _⟩ => ⟨S2048, .f32⟩
  | .hbm, ⟨4, _⟩ => ⟨S1x2048, .f32⟩
  | .hbm, ⟨5, _⟩ => ⟨S1, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S1, .f32⟩
  | .hbm, ⟨15, _⟩ => ⟨S1, .f32⟩
  | .hbm, ⟨16, _⟩ => ⟨S1, .f32⟩
  | .hbm, ⟨17, _⟩ => ⟨S1, .f32⟩
  | .hbm, ⟨18, _⟩ => ⟨S48x192x512, .f32⟩
  | .hbm, ⟨19, _⟩ => ⟨S96x192x512, .f32⟩
  | .hbm, ⟨20, _⟩ => ⟨S96x192x48x192, .f32⟩
  | .hbm, ⟨21, _⟩ => ⟨S48x96x192x192, .f32⟩
  | .hbm, ⟨22, _⟩ => ⟨S4608x192x192, .f32⟩
  | .hbm, ⟨23, _⟩ => ⟨S_, .f32⟩
  | .hbm, ⟨24, _⟩ => ⟨S4608x192, .f32⟩
  | .hbm, ⟨25, _⟩ => ⟨S_, .f32⟩
  | .hbm, ⟨26, _⟩ => ⟨S4608x192, .f32⟩
  | .hbm, ⟨27, _⟩ => ⟨S4608x384, .f32⟩
  | .hbm, ⟨28, _⟩ => ⟨S9216x192, .f32⟩
  | .hbm, ⟨29, _⟩ => ⟨S1x1, .f32⟩
  | .hbm, ⟨30, _⟩ => ⟨S9216x192, .f32⟩
  | .hbm, ⟨31, _⟩ => ⟨S9216x192, .f32⟩
  | .hbm, ⟨32, _⟩ => ⟨S_, .f32⟩
  | .hbm, ⟨33, _⟩ => ⟨S1, .f32⟩
  | .hbm, ⟨34, _⟩ => ⟨S1, .f32⟩
  | .hbm, ⟨35, _⟩ => ⟨S1, .f32⟩
  | .hbm, ⟨36, _⟩ => ⟨S1, .f32⟩
  | .hbm, ⟨37, _⟩ => ⟨S1x1, .f32⟩
  | .hbm, ⟨38, _⟩ => ⟨S9216x192, .f32⟩
  | .hbm, ⟨39, _⟩ => ⟨S9216x192, .f32⟩
  | .hbm, ⟨40, _⟩ => ⟨S1x1, .f32⟩
  | .hbm, ⟨41, _⟩ => ⟨S9216x192, .f32⟩
  | .hbm, ⟨42, _⟩ => ⟨S9216x192, .f32⟩
  | .hbm, ⟨43, _⟩ => ⟨S192x2048, .f32⟩
  | .hbm, ⟨44, _⟩ => ⟨S9216x2048, .f32⟩
  | .hbm, ⟨45, _⟩ => ⟨S1x2048, .f32⟩
  | .hbm, ⟨46, _⟩ => ⟨S9216x2048, .f32⟩
  | .hbm, ⟨47, _⟩ => ⟨S9216x2048, .f32⟩
  | .hbm, ⟨48, _⟩ => ⟨S1x2048, .f32⟩
  | .hbm, ⟨49, _⟩ => ⟨S9216x2048, .f32⟩
  | .hbm, ⟨50, _⟩ => ⟨S9216x2048, .f32⟩
  | .hbm, ⟨51, _⟩ => ⟨S_, .f32⟩
  | .hbm, ⟨52, _⟩ => ⟨S2048, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S1x2048, .f32⟩
  | .hbm, ⟨57, _⟩ => ⟨S9216x2048, .f32⟩
  | .hbm, ⟨58, _⟩ => ⟨S9216x2048, .f32⟩
  | .hbm, ⟨59, _⟩ => ⟨S1x2048, .f32⟩
  | .hbm, ⟨60, _⟩ => ⟨S9216x2048, .f32⟩
  | .hbm, ⟨61, _⟩ => ⟨S9216x2048, .f32⟩
  | .hbm, ⟨62, _⟩ => ⟨S_, .f32⟩
  | .hbm, ⟨63, _⟩ => ⟨S9216x2048, .f32⟩
  | .hbm, ⟨64, _⟩ => ⟨S9216x2048, .f32⟩
  | .hbm, ⟨65, _⟩ => ⟨S2048x1, .f32⟩
  | .hbm, ⟨66, _⟩ => ⟨S9216x1, .f32⟩
  | .hbm, ⟨67, _⟩ => ⟨S1x1, .f32⟩
  | .hbm, ⟨68, _⟩ => ⟨S9216x1, .f32⟩
  | .hbm, ⟨69, _⟩ => ⟨S9216x1, .f32⟩
  | .hbm, ⟨70, _⟩ => ⟨S4608x2, .f32⟩
  | .hbm, ⟨71, _⟩ => ⟨S_, .f32⟩
  | .hbm, ⟨72, _⟩ => ⟨S4608, .f32⟩
  | .hbm, ⟨73, _⟩ => ⟨S4608x1, .f32⟩
  | .hbm, ⟨74, _⟩ => ⟨S1x1, .f32⟩
  | .hbm, ⟨75, _⟩ => ⟨S4608x1, .f32⟩
  | .hbm, ⟨76, _⟩ => ⟨S4608x1, .f32⟩
  | .hbm, ⟨77, _⟩ => ⟨S_, .f32⟩
  | .hbm, ⟨78, _⟩ => ⟨S1, .f32⟩
  | .hbm, ⟨79, _⟩ => ⟨S1, .f32⟩
  | .hbm, ⟨80, _⟩ => ⟨S1, .f32⟩
  | .hbm, ⟨81, _⟩ => ⟨S1, .f32⟩
  | .hbm, ⟨82, _⟩ => ⟨S1x1, .f32⟩
  | .hbm, ⟨83, _⟩ => ⟨S4608x1, .f32⟩
  | .hbm, ⟨84, _⟩ => ⟨S4608x1, .f32⟩
  | .hbm, ⟨85, _⟩ => ⟨S1x1, .f32⟩
  | .hbm, ⟨86, _⟩ => ⟨S4608x1, .f32⟩
  | .hbm, ⟨87, _⟩ => ⟨S4608x1, .f32⟩
  | .hbm, ⟨88, _⟩ => ⟨S48x96, .f32⟩
  | _, _ => ⟨S48x24x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call0_cst : Ref sig .tc := ⟨.hbm, 62, rfl⟩
abbrev main_call0_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_4 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  shapeCasts_S48x24x8x512_S48x192x512 : S48x24x8x512.ShapeCasts S48x192x512
  shapeCasts_S96x24x8x512_S96x192x512 : S96x24x8x512.ShapeCasts S96x192x512
  transposes_S96x192x48x192_S48x96x192x192_2_0_1_3 : S96x192x48x192.Transposes [2, 0, 1, 3] S48x96x192x192
  shapeCasts_S48x96x192x192_S4608x192x192 : S48x96x192x192.ShapeCasts S4608x192x192
  reducesTo_S4608x192x192_S4608x192_d1 : S4608x192x192.ReducesTo [1] S4608x192
  h_S_ : 0 < S_.numel
  reducesTo_S4608x192x192_S4608x192_d2 : S4608x192x192.ReducesTo [2] S4608x192
  concatenates_S4608x192_S4608x192_S4608x384_d1 : Shape.Concatenates [S4608x192, S4608x192] S4608x384 1
  shapeCasts_S4608x384_S9216x192 : S4608x384.ShapeCasts S9216x192
  bcast_S1_S1x1_1 : S1.BroadcastsInDim S1x1 (![1] : Fin 1 → Fin S1x1.rank)
  bcast_S1x1_S9216x192_0_1 : S1x1.BroadcastsInDim S9216x192 (![0, 1] : Fin 2 → Fin S9216x192.rank)
  bcast_S_S1 : S_.BroadcastsInDim S1 (![] : Fin 0 → Fin S1.rank)
  transposes_S2048x192_S192x2048_1_0 : S2048x192.Transposes [1, 0] S192x2048
  bcast_S2048_S1x2048_1 : S2048.BroadcastsInDim S1x2048 (![1] : Fin 1 → Fin S1x2048.rank)
  bcast_S1x2048_S9216x2048_0_1 : S1x2048.BroadcastsInDim S9216x2048 (![0, 1] : Fin 2 → Fin S9216x2048.rank)
  bcast_S_S2048 : S_.BroadcastsInDim S2048 (![] : Fin 0 → Fin S2048.rank)
  bcast_S_S9216x2048 : S_.BroadcastsInDim S9216x2048 (![] : Fin 0 → Fin S9216x2048.rank)
  transposes_S1x2048_S2048x1_1_0 : S1x2048.Transposes [1, 0] S2048x1
  bcast_S1x1_S9216x1_0_1 : S1x1.BroadcastsInDim S9216x1 (![0, 1] : Fin 2 → Fin S9216x1.rank)
  shapeCasts_S9216x1_S4608x2 : S9216x1.ShapeCasts S4608x2
  reducesTo_S4608x2_S4608_d1 : S4608x2.ReducesTo [1] S4608
  bcast_S4608_S4608x1_0 : S4608.BroadcastsInDim S4608x1 (![0] : Fin 1 → Fin S4608x1.rank)
  bcast_S1x1_S4608x1_0_1 : S1x1.BroadcastsInDim S4608x1 (![0, 1] : Fin 2 → Fin S4608x1.rank)
  shapeCasts_S4608x1_S48x96 : S4608x1.ShapeCasts S48x96
  dot_S96x192x512_S48x192x512_S96x192x48x192_2_2_01_01_n_n_wf : DotDims.WF S96x192x512 S48x192x512 S96x192x48x192 [2] [2] [0, 1] [0, 1] [] []
  dot_S9216x192_S192x2048_S9216x2048_1_0_0_1_n_n_wf : DotDims.WF S9216x192 S192x2048 S9216x2048 [1] [0] [0] [1] [] []
  dot_S9216x2048_S2048x1_S9216x1_1_0_0_1_n_n_wf : DotDims.WF S9216x2048 S2048x1 S9216x1 [1] [0] [0] [1] [] []

variable [Facts₀]

def dot_S96x192x512_S48x192x512_S96x192x48x192_2_2_01_01_n_n : DotDims S96x192x512 S48x192x512 S96x192x48x192 where
  lhsContracting := [2]
  rhsContracting := [2]
  lhsNonContracting := [0, 1]
  rhsNonContracting := [0, 1]
  lhsBatch := []
  rhsBatch := []
  wf := dot_S96x192x512_S48x192x512_S96x192x48x192_2_2_01_01_n_n_wf
def dot_S9216x192_S192x2048_S9216x2048_1_0_0_1_n_n : DotDims S9216x192 S192x2048 S9216x2048 where
  lhsContracting := [1]
  rhsContracting := [0]
  lhsNonContracting := [0]
  rhsNonContracting := [1]
  lhsBatch := []
  rhsBatch := []
  wf := dot_S9216x192_S192x2048_S9216x2048_1_0_0_1_n_n_wf
def dot_S9216x2048_S2048x1_S9216x1_1_0_0_1_n_n : DotDims S9216x2048 S2048x1 S9216x1 where
  lhsContracting := [1]
  rhsContracting := [0]
  lhsNonContracting := [0]
  rhsNonContracting := [1]
  lhsBatch := []
  rhsBatch := []
  wf := dot_S9216x2048_S2048x1_S9216x1_1_0_0_1_n_n_wf

class Facts : Prop extends Facts₀ where

variable [Facts]
-- ==== Proof.KernelResultRun.lean ====
/-
  The idealized kernel's run, keeping the RESULT. @main is five segments: host operations, the score-and-pool
  pipeline, host operations, the MLP pipeline, a final reshape. The buffer contents at each boundary are a fold from
  the launch memory (`Gen.W0` … `Gen.W5`), and at the end every unscoped buffer holds what the last fold says. The
  frame certificate keeps, of that, only the argument arrays; here the result buffer is kept as well:
  every weakly fair execution terminates, nothing faults, the result buffer ends at `W5 … main_v38` and the argument
  arrays end as launched. What `W5 … main_v38` is, as a function of the arguments, is read off the fold in the
  modules that follow.
-/
import proofs.«133369_j44135083933763_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and every argument array as launched. -/
theorem run_result : θ_run defs (onTc (τ := τ) (main (F := F))) ⟨m, fun _ => 0, ρ⟩ (fun r => ∀ c : Dev nD,
      r.2.mem ((c.tc : Thread nD τ).loc main_v38) = W5 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v38 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c)⟩)

end Cert.KernelIdeal.ResultRun

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.ScorePoolBody.lean ====
/-
  The score-and-pool body at an index. One grid point holds the whole target `x0` ([48, 192, 512]: query `q`,
  position `t`, feature `d`) and one slab `x1` of the memory ([1, 192, 512]: position `s`, feature `d`). The body
  multiplies the target, flattened to [9216, 512], by the slab's transpose, so the product's entry at
  `(q, t, s)` is the inner product over `d` of the target's row `(q, t)` and the slab's row `s`; it then takes
  the maximum over `s` (first output, indexed by `(q, t)`) and the maximum over `t` (second output, indexed by
  `(q, s)`), each a fold of `max` from the printed initial word (the pattern of -∞).
-/
import proofs.«133369_j44135083933763_2_alg».proof.Proof.Gen.KernelIdeal.Skeleton
import proofs.«133369_j44135083933763_2_alg».proof.Proof.LibMatmulNN
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ScorePool

open Cert.KernelIdeal Cert.KernelIdeal.Gen Idealize.ShloMosaic Idealize.ShloMosaic.ValueIdx

/-- The inner product of the target's row `(q, t)` and a slab's row `s`. -/
def dotRow (x0 : S48x192x512.Idx → EReal) (x1 : S1x192x512.Idx → EReal) (q : Fin 48) (t s : Fin 192) : EReal :=
  ∑ d : Fin 512, x0 (ix3 q t d) * x1 (ix3 (0 : Fin 1) s d)

/-- The product's entry at `(q, t, s)`. -/
theorem scores_apply (x0 : Vec Ideal S48x192x512 .bf16) (x1 : Vec Ideal S1x192x512 .bf16) (q : Fin 48) (t s : Fin 192) :
    k0_pay1 x0 x1 (ix3 q t s) = dotRow x0 x1 q t s := by
  unfold k0_pay1 dotRow
  dsimp only
  refine (shapeCast_apply _ _ (ix3 q t s) (ix2 (⟨q.val * 192 + t.val, by omega⟩ : Fin 9216) s) (by
    rw [Shape.rowMajor_val_two, Shape.rowMajor_val_three]; rfl)).trans ?_
  refine (Cert.LibMatmulNN.matmul_zero_apply' _ rfl rfl rfl rfl rfl rfl none _ _ _ s).trans ?_
  refine Finset.sum_congr rfl fun d _ => ?_
  refine congrArg₂ (· * ·) ?_ ?_
  · refine (shapeCast_apply _ _ (ix2 (⟨q.val * 192 + t.val, by omega⟩ : Fin 9216) d) (ix3 q t d) (by
      rw [Shape.rowMajor_val_two, Shape.rowMajor_val_three]; rfl)).trans ?_
    rw [shapeCast_self]
  · refine (transpose_ix2_apply _ _ d s).trans ?_
    exact shapeCast_1ab_ab_apply _ _ s d

/-- The first output at `(q, t)`: the maximum over `s`. -/
theorem poolOverS_apply (x0 : Vec Ideal S48x192x512 .bf16) (x1 : Vec Ideal S1x192x512 .bf16) (q : Fin 48) (t : Fin 192) :
    k0_pay2 x0 x1 (ix3 (0 : Fin 1) q t)
      = (Finset.univ : Finset (Fin 192)).fold max (Ideal.ofBits .f32 0xFF800000#32) (fun s => dotRow x0 x1 q t s) := by
  unfold k0_pay2
  dsimp only
  refine (shapeCast_ab_1ab_apply _ _ (0 : Fin 1) q t).trans ?_
  refine (Ideal.multiReduction_maximumf_single _ _ reduces_S48x192x192_S48x192 _ _ (ix2 q t)).trans ?_
  refine congrArg (Finset.fold max _ · _) (funext fun s => ?_)
  refine (congrArg (k0_pay1 x0 x1) (?_ : _ = ix3 q t s)).trans (scores_apply x0 x1 q t s)
  funext c; apply Fin.ext
  match c with
  | ⟨0, _⟩ => rfl
  | ⟨1, _⟩ => rfl
  | ⟨2, _⟩ => rfl

/-- The second output at `(q, s)`: the maximum over `t`. -/
theorem poolOverT_apply (x0 : Vec Ideal S48x192x512 .bf16) (x1 : Vec Ideal S1x192x512 .bf16) (q : Fin 48) (s : Fin 192) :
    k0_pay3 x0 x1 (ix3 (0 : Fin 1) q s)
      = (Finset.univ : Finset (Fin 192)).fold max (Ideal.ofBits .f32 0xFF800000#32) (fun t => dotRow x0 x1 q t s) := by
  unfold k0_pay3
  dsimp only
  refine (shapeCast_ab_1ab_apply _ _ (0 : Fin 1) q s).trans ?_
  refine (Ideal.multiReduction_maximumf_single _ _ reduces_S48x192x192_S48x192_2 _ _ (ix2 q s)).trans ?_
  refine congrArg (Finset.fold max _ · _) (funext fun t => ?_)
  refine (congrArg (k0_pay1 x0 x1) (?_ : _ = ix3 q t s)).trans (scores_apply x0 x1 q t s)
  funext c; apply Fin.ext
  match c with
  | ⟨0, _⟩ => rfl
  | ⟨1, _⟩ => rfl
  | ⟨2, _⟩ => rfl

end Cert.KernelIdeal.ScorePool

end
-- ==== Proof.ScorePoolArray.lean ====
/-
  The score-and-pool pipeline's two output arrays, whole. Grid point `k` (of 96) stages the whole target and slab
  `k` of the memory, and writes back slab `k` of each output; the 96 slabs tile each output array. So after the
  pipeline the first output at `(k, q, t)` is the maximum over `s` of the inner product over `d` of the target's
  row `(q, t)` and the memory's row `(k, s)`, and the second output at `(k, q, s)` is the maximum over `t` of the
  same inner product — as functions of the two arrays the pipeline is entered with.
-/
import proofs.«133369_j44135083933763_2_alg».proof.Proof.Gen.KernelIdeal.Frame
import proofs.«133369_j44135083933763_2_alg».proof.Proof.ScorePoolBody
import Idealize.ShloMosaic.Lib.Pipeline.Value

set_option maxRecDepth 16384

noncomputable section

open scoped BigOperators

namespace Cert.KernelIdeal.ScorePool

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The maximum over `s` of the inner products, at `(k, q, t)`. -/
def pooledOverS (A : S48x192x512.Idx → EReal) (B : S96x192x512.Idx → EReal) : S96x48x192.Idx → EReal :=
  fun i => (Finset.univ : Finset (Fin 192)).fold max (Ideal.ofBits .f32 0xFF800000#32)
    (fun s => ∑ d : Fin 512, A (ix3 (i 1) (i 2) d) * B (ix3 (i 0) s d))

/-- The maximum over `t` of the inner products, at `(k, q, s)`. -/
def pooledOverT (A : S48x192x512.Idx → EReal) (B : S96x192x512.Idx → EReal) : S96x48x192.Idx → EReal :=
  fun i => (Finset.univ : Finset (Fin 192)).fold max (Ideal.ofBits .f32 0xFF800000#32)
    (fun t => ∑ d : Fin 512, A (ix3 (i 1) t d) * B (ix3 (i 0) (i 2) d))

/-- `pooledOverS` at named coordinates. -/
theorem pooledOverS_ix (A : S48x192x512.Idx → EReal) (B : S96x192x512.Idx → EReal) (k : Fin 96) (q : Fin 48) (p : Fin 192) :
    pooledOverS A B (ix3 k q p) = (Finset.univ : Finset (Fin 192)).fold max (Ideal.ofBits .f32 0xFF800000#32)
      (fun s => ∑ d : Fin 512, A (ix3 q p d) * B (ix3 k s d)) := rfl

/-- `pooledOverT` at named coordinates. -/
theorem pooledOverT_ix (A : S48x192x512.Idx → EReal) (B : S96x192x512.Idx → EReal) (k : Fin 96) (q : Fin 48) (p : Fin 192) :
    pooledOverT A B (ix3 k q p) = (Finset.univ : Finset (Fin 192)).fold max (Ideal.ofBits .f32 0xFF800000#32)
      (fun t => ∑ d : Fin 512, A (ix3 q t d) * B (ix3 k p d)) := rfl

theorem zero3 : (![0, 0, 0] : Fin 3 → Nat) = fun _ => 0 := funext fun a => by fin_cases a <;> rfl

/-- The printed index maps over the grid: the target's window stays at the origin; the memory's and both outputs'
    windows sit at slab `k` at point `k`. -/
theorem index_facts : ∀ t : Fin cfg0.N,
    win0_0.index t (0 : Fin 3) = 0 ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The target's block at any point is the whole target. -/
theorem target_block (c : Dev nD) (t : Fin cfg0.N) (q : Fin 48) (p : Fin 192) (d : Fin 512) :
    iblk0 V c 0 t (ix3 q p d : S48x192x512.Idx) = V c main_v2 (ix3 q p d : S48x192x512.Idx) := by
  show V c main_v2 (((cfg0.win 0).blk t).view.emb (ix3 q p d : S48x192x512.Idx)) = _
  obtain ⟨e0, e1, e2, -⟩ := index_facts t
  refine congrArg _ (funext fun a => Fin.ext ?_)
  match a with
  | ⟨0, _⟩ => show win0_0.index t (0 : Fin 3) * 48 + 1 * q.val = q.val; omega
  | ⟨1, _⟩ => show win0_0.index t (1 : Fin 3) * 192 + 1 * p.val = p.val; omega
  | ⟨2, _⟩ => show win0_0.index t (2 : Fin 3) * 512 + 1 * d.val = d.val; omega

/-- The memory's block at point `k` is its slab `k`. -/
theorem memory_block (c : Dev nD) (t : Fin cfg0.N) (s : Fin 192) (d : Fin 512) :
    iblk0 V c 1 t (ix3 (0 : Fin 1) s d : S1x192x512.Idx)
      = V c main_v3 (ix3 (⟨t.val, by have := t.isLt; have h96 : cfg0.N = 96 := N_0; omega⟩ : Fin 96) s d : S96x192x512.Idx) := by
  show V c main_v3 (((cfg0.win 1).blk t).view.emb (ix3 (0 : Fin 1) s d : S1x192x512.Idx)) = _
  obtain ⟨-, -, -, e0, e1, e2, -⟩ := index_facts t
  refine congrArg _ (funext fun a => Fin.ext ?_)
  match a with
  | ⟨0, _⟩ => show win0_1.index t (0 : Fin 3) * 1 + 1 * 0 = t.val; omega
  | ⟨1, _⟩ => show win0_1.index t (1 : Fin 3) * 192 + 1 * s.val = s.val; omega
  | ⟨2, _⟩ => show win0_1.index t (2 : Fin 3) * 512 + 1 * d.val = d.val; omega

/-- Grid point `t` as a slab number. -/
def slab (t : Fin cfg0.N) : Fin 96 := ⟨t.val, by have := t.isLt; have h96 : cfg0.N = 96 := N_0; omega⟩

theorem memory_block' (c : Dev nD) (t : Fin cfg0.N) (s : Fin 192) (d : Fin 512) :
    iblk0 V c 1 t (ix3 (0 : Fin 1) s d : S1x192x512.Idx) = V c main_v3 (ix3 (slab t) s d : S96x192x512.Idx) :=
  memory_block V c t s d

/-- An output's block at point `k` sits at slab `k` of its array (both outputs have the same index map). -/
theorem out_block_S (t : Fin cfg0.N) (q : Fin 48) (p : Fin 192) :
    ((cfg0.win 2).blk t).view.emb (ix3 (0 : Fin 1) q p : S1x48x192.Idx) = (ix3 (slab t) q p : S96x48x192.Idx) := by
  obtain ⟨-, -, -, -, -, -, e0, e1, e2, -⟩ := index_facts t
  funext a; apply Fin.ext
  match a with
  | ⟨0, _⟩ => show win0_2.index t (0 : Fin 3) * 1 + 1 * 0 = t.val; omega
  | ⟨1, _⟩ => show win0_2.index t (1 : Fin 3) * 48 + 1 * q.val = q.val; omega
  | ⟨2, _⟩ => show win0_2.index t (2 : Fin 3) * 192 + 1 * p.val = p.val; omega

theorem out_block_T (t : Fin cfg0.N) (q : Fin 48) (p : Fin 192) :
    ((cfg0.win 3).blk t).view.emb (ix3 (0 : Fin 1) q p : S1x48x192.Idx) = (ix3 (slab t) q p : S96x48x192.Idx) := by
  obtain ⟨-, -, -, -, -, -, -, -, -, e0, e1, e2⟩ := index_facts t
  funext a; apply Fin.ext
  match a with
  | ⟨0, _⟩ => show win0_3.index t (0 : Fin 3) * 1 + 1 * 0 = t.val; omega
  | ⟨1, _⟩ => show win0_3.index t (1 : Fin 3) * 48 + 1 * q.val = q.val; omega
  | ⟨2, _⟩ => show win0_3.index t (2 : Fin 3) * 192 + 1 * p.val = p.val; omega

/-- What point `k` writes back to the first output is slab `k` of `pooledOverS`. -/
theorem flushedS_eq (c : Dev nD) (t : Fin cfg0.N) :
    (dat0 V c).flushed 2 t
      = ((cfg0.win 2).blk t).view.read (Elt Ideal) (pooledOverS (V c main_v2) (V c main_v3)) := by
  show (cfg0.win 2).cut (grid0.coords t) ((dat0 V c).after 2 t) = _
  rw [after0_2]
  unfold out0_2
  rw [View.canon_unit_zero zero3]
  simp only [View.ld_unit_zero (S := S48x192x512) zero3, View.ld_unit_zero (S := S1x192x512) zero3]
  funext j
  obtain ⟨u, q, p, rfl⟩ : ∃ (u : Fin 1) (q : Fin 48) (p : Fin 192), j = (ix3 u q p : S1x48x192.Idx) :=
    ⟨j 0, j 1, j 2, eq_ix3 j⟩
  obtain rfl : u = 0 := Subsingleton.elim _ _
  show k0_pay2 (iblk0 V c 0 t) (iblk0 V c 1 t) (ix3 (0 : Fin 1) q p)
    = pooledOverS (V c main_v2) (V c main_v3) (((cfg0.win 2).blk t).view.emb (ix3 (0 : Fin 1) q p : S1x48x192.Idx))
  refine (poolOverS_apply (iblk0 V c 0 t) (iblk0 V c 1 t) q p).trans ?_
  refine Eq.trans ?_ (congrArg (pooledOverS (V c main_v2) (V c main_v3)) (out_block_S t q p).symm)
  refine Eq.trans ?_ (pooledOverS_ix (V c main_v2) (V c main_v3) (slab t) q p).symm
  refine congrArg (Finset.fold max _ · _) (funext fun s => ?_)
  unfold dotRow
  refine Finset.sum_congr rfl fun d _ => ?_
  rw [target_block V c t q p d, memory_block' V c t s d]

/-- What point `k` writes back to the second output is slab `k` of `pooledOverT`. -/
theorem flushedT_eq (c : Dev nD) (t : Fin cfg0.N) :
    (dat0 V c).flushed 3 t
      = ((cfg0.win 3).blk t).view.read (Elt Ideal) (pooledOverT (V c main_v2) (V c main_v3)) := by
  show (cfg0.win 3).cut (grid0.coords t) ((dat0 V c).after 3 t) = _
  rw [after0_3]
  unfold out0_3
  rw [View.canon_unit_zero zero3]
  simp only [View.ld_unit_zero (S := S48x192x512) zero3, View.ld_unit_zero (S := S1x192x512) zero3]
  funext j
  obtain ⟨u, q, p, rfl⟩ : ∃ (u : Fin 1) (q : Fin 48) (p : Fin 192), j = (ix3 u q p : S1x48x192.Idx) :=
    ⟨j 0, j 1, j 2, eq_ix3 j⟩
  obtain rfl : u = 0 := Subsingleton.elim _ _
  show k0_pay3 (iblk0 V c 0 t) (iblk0 V c 1 t) (ix3 (0 : Fin 1) q p)
    = pooledOverT (V c main_v2) (V c main_v3) (((cfg0.win 3).blk t).view.emb (ix3 (0 : Fin 1) q p : S1x48x192.Idx))
  refine (poolOverT_apply (iblk0 V c 0 t) (iblk0 V c 1 t) q p).trans ?_
  refine Eq.trans ?_ (congrArg (pooledOverT (V c main_v2) (V c main_v3)) (out_block_T t q p).symm)
  refine Eq.trans ?_ (pooledOverT_ix (V c main_v2) (V c main_v3) (slab t) q p).symm
  refine congrArg (Finset.fold max _ · _) (funext fun s => ?_)
  unfold dotRow
  refine Finset.sum_congr rfl fun d _ => ?_
  rw [target_block V c t q s d, memory_block' V c t p d]

/-- An index of an output array lies in point `t`'s block iff each coordinate lies in the block's range. -/
theorem mem_block_S (t : Fin cfg0.N) (i : S96x48x192.Idx) :
    i ∈ ((cfg0.win 2).blk t).view.set ↔ ∀ a : Fin 3, win0_2.index t a * S1x48x192.size a ≤ (i a).val
      ∧ (i a).val < win0_2.index t a * S1x48x192.size a + S1x48x192.size a := by
  show i ∈ ((View.whole main_v4_0).slice (win0_2.rect t)).set ↔ _
  rw [View.set_slice_whole, Rect.mem_set_unit]
  exact Iff.rfl

theorem mem_block_T (t : Fin cfg0.N) (i : S96x48x192.Idx) :
    i ∈ ((cfg0.win 3).blk t).view.set ↔ ∀ a : Fin 3, win0_3.index t a * S1x48x192.size a ≤ (i a).val
      ∧ (i a).val < win0_3.index t a * S1x48x192.size a + S1x48x192.size a := by
  show i ∈ ((View.whole main_v4_1).slice (win0_3.rect t)).set ↔ _
  rw [View.set_slice_whole, Rect.mem_set_unit]
  exact Iff.rfl

/-- The point that covers an index is its slab number. -/
def pointOf (i : S96x48x192.Idx) : Fin cfg0.N := ⟨(i 0).val, by have h0 : (i 0).val < 96 := (i 0).isLt; have h96 : cfg0.N = 96 := N_0; omega⟩

theorem cover_S (i : S96x48x192.Idx) :
    ∃ t : Fin cfg0.N, (cfg0.win 2).flush t = true ∧ i ∈ ((cfg0.win 2).blk t).view.set := by
  refine ⟨pointOf i, flush0_2 _, ?_⟩
  rw [mem_block_S]
  obtain ⟨-, -, -, -, -, -, e0, e1, e2, -⟩ := index_facts (pointOf i)
  have h0 : (pointOf i).val = (i 0).val := rfl
  have h1 : (i 1).val < 48 := (i 1).isLt
  have h2 : (i 2).val < 192 := (i 2).isLt
  intro a
  match a with
  | ⟨0, _⟩ => show win0_2.index (pointOf i) (0 : Fin 3) * 1 ≤ (i 0).val ∧ (i 0).val < win0_2.index (pointOf i) (0 : Fin 3) * 1 + 1; omega
  | ⟨1, _⟩ => show win0_2.index (pointOf i) (1 : Fin 3) * 48 ≤ (i 1).val ∧ (i 1).val < win0_2.index (pointOf i) (1 : Fin 3) * 48 + 48; omega
  | ⟨2, _⟩ => show win0_2.index (pointOf i) (2 : Fin 3) * 192 ≤ (i 2).val ∧ (i 2).val < win0_2.index (pointOf i) (2 : Fin 3) * 192 + 192; omega

theorem cover_T (i : S96x48x192.Idx) :
    ∃ t : Fin cfg0.N, (cfg0.win 3).flush t = true ∧ i ∈ ((cfg0.win 3).blk t).view.set := by
  refine ⟨pointOf i, flush0_3 _, ?_⟩
  rw [mem_block_T]
  obtain ⟨-, -, -, -, -, -, -, -, -, e0, e1, e2⟩ := index_facts (pointOf i)
  have h0 : (pointOf i).val = (i 0).val := rfl
  have h1 : (i 1).val < 48 := (i 1).isLt
  have h2 : (i 2).val < 192 := (i 2).isLt
  intro a
  match a with
  | ⟨0, _⟩ => show win0_3.index (pointOf i) (0 : Fin 3) * 1 ≤ (i 0).val ∧ (i 0).val < win0_3.index (pointOf i) (0 : Fin 3) * 1 + 1; omega
  | ⟨1, _⟩ => show win0_3.index (pointOf i) (1 : Fin 3) * 48 ≤ (i 1).val ∧ (i 1).val < win0_3.index (pointOf i) (1 : Fin 3) * 48 + 48; omega
  | ⟨2, _⟩ => show win0_3.index (pointOf i) (2 : Fin 3) * 192 ≤ (i 2).val ∧ (i 2).val < win0_3.index (pointOf i) (2 : Fin 3) * 192 + 192; omega

/-- THE FIRST OUTPUT ARRAY after the pipeline. -/
theorem arrayS (c : Dev nD) : (dat0 V c).arrAt 2 cfg0.N = pooledOverS (V c main_v2) (V c main_v3) :=
  (dat0 V c).arrAt_eq_of_cover 2 _ (fun t _ => flushedS_eq V c t) cover_S

/-- THE SECOND OUTPUT ARRAY after the pipeline. -/
theorem arrayT (c : Dev nD) : (dat0 V c).arrAt 3 cfg0.N = pooledOverT (V c main_v2) (V c main_v3) :=
  (dat0 V c).arrAt_eq_of_cover 3 _ (fun t _ => flushedT_eq V c t) cover_T

end Cert.KernelIdeal.ScorePool

end
-- ==== Proof.MlpBody.lean ====
/-
  The MLP body at an index. One grid point holds 768 rows of each pooled array (`xa`, `xb`: [768, 192]) and the
  parameters: the first layer's weights `w2` ([192, 2048]) and bias `c2` ([1, 2048]), the second layer's weights `w3`
  ([2048, 1]) and bias `c3` ([1, 1]), and three batch norms as a scale and a shift each (`s1`, `h1`: [1, 1];
  `s2`, `h2`: [1, 2048]; `s3`, `h3`: [1, 1]). A row `x` goes through
    x ↦ x·s1 + h1 ↦ (· w2 + c2)·s2 + h2 ↦ max(·, 0) ↦ · w3 + c3        (`branch`)
  and the body's output at row `r` is `(branch xa[r] + branch xb[r])·s3 + h3`. The roundings to bf16 in front of the
  two products are the identity on the extended reals.
-/
import proofs.«133369_j44135083933763_2_alg».proof.Proof.Gen.KernelIdeal.Skeleton
import proofs.«133369_j44135083933763_2_alg».proof.Proof.LibMatmulNN
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Mlp

open Cert.KernelIdeal Cert.KernelIdeal.Gen Idealize.ShloMosaic Idealize.ShloMosaic.ValueIdx

/-- A [1, 1] array broadcast to [a, b] reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The first layer with its two batch norms, before the relu, for a row `x`, at feature `f`. -/
def hidden (w2 : S192x2048.Idx → EReal) (c2 s2 h2 : S1x2048.Idx → EReal) (s1 h1 : S1x1.Idx → EReal)
    (x : Fin 192 → EReal) (f : Fin 2048) : EReal :=
  ((∑ s : Fin 192, (x s * s1 (ix2 0 0) + h1 (ix2 0 0)) * w2 (ix2 s f)) + c2 (ix2 0 f)) * s2 (ix2 0 f) + h2 (ix2 0 f)

/-- One branch of the MLP for a row `x`. -/
def branch (w2 : S192x2048.Idx → EReal) (c2 s2 h2 : S1x2048.Idx → EReal) (w3 : S2048x1.Idx → EReal)
    (c3 s1 h1 : S1x1.Idx → EReal) (x : Fin 192 → EReal) : EReal :=
  (∑ f : Fin 2048, max (hidden w2 c2 s2 h2 s1 h1 x f) (Ideal.ofBits .f32 0x00000000#32) * w3 (ix2 f 0)) + c3 (ix2 0 0)

/-- The first branch's first layer at `(r, f)`. -/
theorem hidden_apply (w2 : Vec Ideal S192x2048 .f32) (c2 : Vec Ideal S1x2048 .f32) (s1 h1 : Vec Ideal S1x1 .f32)
    (s2 h2 : Vec Ideal S1x2048 .f32) (x : Vec Ideal S768x192 .f32) (r : Fin 768) (f : Fin 2048) :
    k1_pay12 w2 c2 s1 h1 s2 h2 x (ix2 r f) = hidden w2 c2 s2 h2 s1 h1 (fun s => x (ix2 r s)) f := by
  unfold k1_pay12 k1_pay2 k1_pay4 k1_pay6 k1_pay7 k1_pay8 k1_pay9 hidden
  dsimp only
  simp only [addf_apply, mulf_apply, shapeCast_self]
  rw [broadcastTo_1b_ab_apply, broadcastTo_1b_ab_apply, broadcastTo_1b_ab_apply]
  refine congrArg₂ (· + ·) (congrArg₂ (· * ·) (congrArg₂ (· + ·) ?_ rfl) rfl) rfl
  refine (Cert.LibMatmulNN.matmul_zero_apply' _ rfl rfl rfl rfl rfl rfl none _ _ r f).trans ?_
  refine Finset.sum_congr rfl fun s _ => ?_
  simp only [truncf_apply, addf_apply, mulf_apply, shapeCast_self]
  rw [broadcastTo_11_ab_apply, broadcastTo_11_ab_apply]

/-- The relu followed by the second layer's product, for any hidden array `H`, at row `r`. -/
theorem relu_layer_apply (H : FVec Ideal S768x2048 .f32) (w3 : Vec Ideal S2048x1 .f32) (r : Fin 768) :
    matmul dot_S768x2048_S2048x1_S768x1_1_0_0_1_n_n none
        (truncf .bf16 (maximumf H (broadcast S768x2048 (Scalar.ofBits .f32 0x00000000#32))) bitsLt_bf16_f32)
        (k1_pay3 w3) (constant S768x1 .f32 0x00000000#32) (ix2 r (0 : Fin 1))
      = ∑ f : Fin 2048, max (H (ix2 r f)) (Ideal.ofBits .f32 0x00000000#32) * w3 (ix2 f (0 : Fin 1)) := by
  refine (Cert.LibMatmulNN.matmul_zero_apply' _ rfl rfl rfl rfl rfl rfl none _ _ r (0 : Fin 1)).trans ?_
  refine Finset.sum_congr rfl fun f _ => ?_
  unfold k1_pay3
  simp only [truncf_apply, maximumf_apply, broadcast_apply, shapeCast_self]
  rfl

/-- THE BODY at row `r`: both branches summed, then the last batch norm. -/
theorem body_apply (xa xb : Vec Ideal S768x192 .f32) (w2 : Vec Ideal S192x2048 .f32) (c2 : Vec Ideal S1x2048 .f32)
    (w3 : Vec Ideal S2048x1 .f32) (c3 s1 h1 : Vec Ideal S1x1 .f32) (s2 h2 : Vec Ideal S1x2048 .f32)
    (s3 h3 : Vec Ideal S1x1 .f32) (r : Fin 768) :
    k1_pay1 (k1_pay2 w2) (k1_pay3 w3) (k1_pay4 c2) (k1_pay5 c3) (k1_pay6 s1) (k1_pay7 h1) (k1_pay8 s2) (k1_pay9 h2)
        (k1_pay10 s3) (k1_pay11 h3) (k1_pay12 w2 c2 s1 h1 s2 h2 xa) xb (ix2 r (0 : Fin 1))
      = (branch w2 c2 s2 h2 w3 c3 s1 h1 (fun s => xa (ix2 r s)) + branch w2 c2 s2 h2 w3 c3 s1 h1 (fun s => xb (ix2 r s)))
          * s3 (ix2 0 0) + h3 (ix2 0 0) := by
  unfold k1_pay1 branch
  simp only [addf_apply, mulf_apply]
  rw [relu_layer_apply, relu_layer_apply]
  have one_entry : ∀ (v : Vec Ideal S1x1 .f32), broadcastTo S768x1 (shapeCast S1x1 v shapeCasts_S1x1_S1x1) broadcasts_S1x1_S768x1 (ix2 r (0 : Fin 1))
      = v (ix2 0 0) := fun v => by rw [shapeCast_self]; exact broadcastTo_11_ab_apply _ _ r (0 : Fin 1)
  refine congrArg₂ (· + ·) (congrArg₂ (· * ·) (congrArg₂ (· + ·) (congrArg₂ (· + ·) ?_ ?_) (congrArg₂ (· + ·) ?_ ?_)) ?_) ?_
  · exact Finset.sum_congr rfl fun f _ =>
      congrArg (fun z => max z (Ideal.ofBits .f32 0x00000000#32) * w3 (ix2 f (0 : Fin 1))) (hidden_apply w2 c2 s1 h1 s2 h2 xa r f)
  · exact one_entry c3
  · exact Finset.sum_congr rfl fun f _ =>
      congrArg (fun z => max z (Ideal.ofBits .f32 0x00000000#32) * w3 (ix2 f (0 : Fin 1))) (hidden_apply w2 c2 s1 h1 s2 h2 xb r f)
  · exact one_entry c3
  · exact one_entry s3
  · exact one_entry h3

end Cert.KernelIdeal.Mlp

end
-- ==== Proof.MlpArray.lean ====
/-
  The MLP pipeline's output array, whole. Grid point `t` (of 6) stages rows `768 t … 768 t + 767` of each pooled array
  and all the parameters, and writes back the same 768 rows of the output; the six tiles cover its 4608 rows. So after
  the pipeline the output at row `R` is `(branch xa[R] + branch xb[R])·s3 + h3`, a function of the arrays the pipeline
  is entered with.
-/
import proofs.«133369_j44135083933763_2_alg».proof.Proof.Gen.KernelIdeal.Frame
import proofs.«133369_j44135083933763_2_alg».proof.Proof.MlpBody
import Idealize.ShloMosaic.Lib.Pipeline.Value

set_option maxRecDepth 16384

noncomputable section

open scoped BigOperators

namespace Cert.KernelIdeal.Mlp

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The MLP of both pooled rows `R`, summed, then the last batch norm: the output array at `(R, 0)`. -/
def mlpRows (xa xb : S4608x192.Idx → EReal) (w2 : S192x2048.Idx → EReal) (c2 : S1x2048.Idx → EReal)
    (w3 : S2048x1.Idx → EReal) (c3 s1 h1 : S1x1.Idx → EReal) (s2 h2 : S1x2048.Idx → EReal) (s3 h3 : S1x1.Idx → EReal) :
    S4608x1.Idx → EReal :=
  fun i => (branch w2 c2 s2 h2 w3 c3 s1 h1 (fun s => xa (ix2 (i 0) s)) + branch w2 c2 s2 h2 w3 c3 s1 h1 (fun s => xb (ix2 (i 0) s)))
    * s3 (ix2 0 0) + h3 (ix2 0 0)

theorem mlpRows_ix (xa xb : S4608x192.Idx → EReal) (w2 : S192x2048.Idx → EReal) (c2 : S1x2048.Idx → EReal)
    (w3 : S2048x1.Idx → EReal) (c3 s1 h1 : S1x1.Idx → EReal) (s2 h2 : S1x2048.Idx → EReal) (s3 h3 : S1x1.Idx → EReal)
    (R : Fin 4608) (u : Fin 1) :
    mlpRows xa xb w2 c2 w3 c3 s1 h1 s2 h2 s3 h3 (ix2 R u)
      = (branch w2 c2 s2 h2 w3 c3 s1 h1 (fun s => xa (ix2 R s)) + branch w2 c2 s2 h2 w3 c3 s1 h1 (fun s => xb (ix2 R s)))
        * s3 (ix2 0 0) + h3 (ix2 0 0) := rfl

theorem zero2 : (![0, 0] : Fin 2 → Nat) = fun _ => 0 := funext fun a => by fin_cases a <;> rfl

/-- The printed index maps over the grid: the pooled inputs and the output move by row tiles; every parameter's window
    stays at the origin. -/
theorem index_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_12.index t (0 : Fin 2) = t.val
    ∧ win1_12.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = 0
    ∧ win1_11.index t (1 : Fin 2) = 0 :=
  (by decide +kernel : ∀ t : Fin grid1.N, _)

theorem whole_block_2 (c : Dev nD) (t : Fin cfg1.N) : iblk1 V c 2 t = V c main_v33 := by
  funext y
  show V c main_v33 (((cfg1.win 2).blk t).view.emb y) = V c main_v33 y
  obtain ⟨-, -, -, -, -, -, e0, e1, -, -, -, -, -, -, -, -, -, -, -, -, -, -, -, -, -, -⟩ := index_facts t
  refine congrArg _ (funext fun a => Fin.ext ?_)
  match a with
  | ⟨0, _⟩ => show win1_2.index t (0 : Fin 2) * 192 + 1 * (y 0).val = (y 0).val; omega
  | ⟨1, _⟩ => show win1_2.index t (1 : Fin 2) * 2048 + 1 * (y 1).val = (y 1).val; omega

theorem whole_block_3 (c : Dev nD) (t : Fin cfg1.N) : iblk1 V c 3 t = V c main_v34 := by
  funext y
  show V c main_v34 (((cfg1.win 3).blk t).view.emb y) = V c main_v34 y
  obtain ⟨-, -, -, -, -, -, -, -, e0, e1, -, -, -, -, -, -, -, -, -, -, -, -, -, -, -, -⟩ := index_facts t
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 2048 + 1 * (y 1).val = (y 1).val; omega

theorem whole_block_4 (c : Dev nD) (t : Fin cfg1.N) : iblk1 V c 4 t = V c main_v35 := by
  funext y
  show V c main_v35 (((cfg1.win 4).blk t).view.emb y) = V c main_v35 y
  obtain ⟨-, -, -, -, -, -, -, -, -, -, e0, e1, -, -, -, -, -, -, -, -, -, -, -, -, -, -⟩ := index_facts t
  refine congrArg _ (funext fun a => Fin.ext ?_)
  match a with
  | ⟨0, _⟩ => show win1_4.index t (0 : Fin 2) * 2048 + 1 * (y 0).val = (y 0).val; omega
  | ⟨1, _⟩ => show win1_4.index t (1 : Fin 2) * 1 + 1 * (y 1).val = (y 1).val; omega

theorem whole_block_5 (c : Dev nD) (t : Fin cfg1.N) : iblk1 V c 5 t = V c main_v36 := by
  funext y
  show V c main_v36 (((cfg1.win 5).blk t).view.emb y) = V c main_v36 y
  obtain ⟨-, -, -, -, -, -, -, -, -, -, -, -, e0, e1, -, -, -, -, -, -, -, -, -, -, -, -⟩ := index_facts t
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 1 + 1 * (y 1).val = (y 1).val; omega

theorem whole_block_6 (c : Dev nD) (t : Fin cfg1.N) : iblk1 V c 6 t = V c main_v15 := by
  funext y
  show V c main_v15 (((cfg1.win 6).blk t).view.emb y) = V c main_v15 y
  obtain ⟨-, -, -, -, -, -, -, -, -, -, -, -, -, -, e0, e1, -, -, -, -, -, -, -, -, -, -⟩ := index_facts t
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 1 + 1 * (y 1).val = (y 1).val; omega

theorem whole_block_7 (c : Dev nD) (t : Fin cfg1.N) : iblk1 V c 7 t = V c main_v16 := by
  funext y
  show V c main_v16 (((cfg1.win 7).blk t).view.emb y) = V c main_v16 y
  obtain ⟨-, -, -, -, -, -, -, -, -, -, -, -, -, -, -, -, e0, e1, -, -, -, -, -, -, -, -⟩ := index_facts t
  refine congrArg _ (funext fun a => Fin.ext ?_)
  match a with
  | ⟨0, _⟩ => show win1_7.index t (0 : Fin 2) * 1 + 1 * (y 0).val = (y 0).val; omega
  | ⟨1, _⟩ => show win1_7.index t (1 : Fin 2) * 1 + 1 * (y 1).val = (y 1).val; omega

theorem whole_block_8 (c : Dev nD) (t : Fin cfg1.N) : iblk1 V c 8 t = V c main_v23 := by
  funext y
  show V c main_v23 (((cfg1.win 8).blk t).view.emb y) = V c main_v23 y
  obtain ⟨-, -, -, -, -, -, -, -, -, -, -, -, -, -, -, -, -, -, e0, e1, -, -, -, -, -, -⟩ := index_facts t
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 2048 + 1 * (y 1).val = (y 1).val; omega

theorem whole_block_9 (c : Dev nD) (t : Fin cfg1.N) : iblk1 V c 9 t = V c main_v24 := by
  funext y
  show V c main_v24 (((cfg1.win 9).blk t).view.emb y) = V c main_v24 y
  obtain ⟨-, -, -, -, -, -, -, -, -, -, -, -, -, -, -, -, -, -, -, -, e0, e1, -, -, -, -⟩ := index_facts t
  refine congrArg _ (funext fun a => Fin.ext ?_)
  match a with
  | ⟨0, _⟩ => show win1_9.index t (0 : Fin 2) * 1 + 1 * (y 0).val = (y 0).val; omega
  | ⟨1, _⟩ => show win1_9.index t (1 : Fin 2) * 2048 + 1 * (y 1).val = (y 1).val; omega

theorem whole_block_10 (c : Dev nD) (t : Fin cfg1.N) : iblk1 V c 10 t = V c main_v31 := by
  funext y
  show V c main_v31 (((cfg1.win 10).blk t).view.emb y) = V c main_v31 y
  obtain ⟨-, -, -, -, -, -, -, -, -, -, -, -, -, -, -, -, -, -, -, -, -, -, e0, e1, -, -⟩ := index_facts t
  refine congrArg _ (funext fun a => Fin.ext ?_)
  match a with
  | ⟨0, _⟩ => show win1_10.index t (0 : Fin 2) * 1 + 1 * (y 0).val = (y 0).val; omega
  | ⟨1, _⟩ => show win1_10.index t (1 : Fin 2) * 1 + 1 * (y 1).val = (y 1).val; omega

theorem whole_block_11 (c : Dev nD) (t : Fin cfg1.N) : iblk1 V c 11 t = V c main_v32 := by
  funext y
  show V c main_v32 (((cfg1.win 11).blk t).view.emb y) = V c main_v32 y
  obtain ⟨-, -, -, -, -, -, -, -, -, -, -, -, -, -, -, -, -, -, -, -, -, -, -, -, e0, e1⟩ := index_facts t
  refine congrArg _ (funext fun a => Fin.ext ?_)
  match a with
  | ⟨0, _⟩ => show win1_11.index t (0 : Fin 2) * 1 + 1 * (y 0).val = (y 0).val; omega
  | ⟨1, _⟩ => show win1_11.index t (1 : Fin 2) * 1 + 1 * (y 1).val = (y 1).val; omega

/-- Row `768 t + r`. -/
def rowOf (t : Fin cfg1.N) (r : Fin 768) : Fin 4608 :=
  ⟨t.val * 768 + r.val, by have := t.isLt; have h6 : cfg1.N = 6 := N_1; have := r.isLt; omega⟩

theorem rows_block_a (c : Dev nD) (t : Fin cfg1.N) (r : Fin 768) (s : Fin 192) :
    iblk1 V c 0 t (ix2 r s : S768x192.Idx) = V c main_v6 (ix2 (rowOf t r) s : S4608x192.Idx) := by
  show V c main_v6 (((cfg1.win 0).blk t).view.emb (ix2 r s : S768x192.Idx)) = _
  obtain ⟨e0, e1, -, -, -, -, -, -, -, -, -, -, -, -, -, -, -, -, -, -, -, -, -, -, -, -⟩ := index_facts t
  refine congrArg _ (funext fun a => Fin.ext ?_)
  match a with
  | ⟨0, _⟩ => show win1_0.index t (0 : Fin 2) * 768 + 1 * r.val = t.val * 768 + r.val; omega
  | ⟨1, _⟩ => show win1_0.index t (1 : Fin 2) * 192 + 1 * s.val = s.val; omega

theorem rows_block_b (c : Dev nD) (t : Fin cfg1.N) (r : Fin 768) (s : Fin 192) :
    iblk1 V c 1 t (ix2 r s : S768x192.Idx) = V c main_v8 (ix2 (rowOf t r) s : S4608x192.Idx) := by
  show V c main_v8 (((cfg1.win 1).blk t).view.emb (ix2 r s : S768x192.Idx)) = _
  obtain ⟨-, -, e0, e1, -, -, -, -, -, -, -, -, -, -, -, -, -, -, -, -, -, -, -, -, -, -⟩ := index_facts t
  refine congrArg _ (funext fun a => Fin.ext ?_)
  match a with
  | ⟨0, _⟩ => show win1_1.index t (0 : Fin 2) * 768 + 1 * r.val = t.val * 768 + r.val; omega
  | ⟨1, _⟩ => show win1_1.index t (1 : Fin 2) * 192 + 1 * s.val = s.val; omega

theorem out_block (t : Fin cfg1.N) (r : Fin 768) :
    ((cfg1.win 12).blk t).view.emb (ix2 r (0 : Fin 1) : S768x1.Idx) = (ix2 (rowOf t r) (0 : Fin 1) : S4608x1.Idx) := by
  obtain ⟨-, -, -, -, e0, e1, -, -, -, -, -, -, -, -, -, -, -, -, -, -, -, -, -, -, -, -⟩ := index_facts t
  funext a; apply Fin.ext
  match a with
  | ⟨0, _⟩ => show win1_12.index t (0 : Fin 2) * 768 + 1 * r.val = t.val * 768 + r.val; omega
  | ⟨1, _⟩ => show win1_12.index t (1 : Fin 2) * 1 + 1 * 0 = 0; omega

/-- What point `t` writes back is tile `t` of `mlpRows`. -/
theorem flushed_eq (c : Dev nD) (t : Fin cfg1.N) :
    (dat1 V c).flushed 12 t
      = ((cfg1.win 12).blk t).view.read (Elt Ideal) (mlpRows (V c main_v6) (V c main_v8) (V c main_v33) (V c main_v34) (V c main_v35) (V c main_v36) (V c main_v15) (V c main_v16) (V c main_v23) (V c main_v24) (V c main_v31) (V c main_v32)) := by
  show (cfg1.win 12).cut (grid1.coords t) ((dat1 V c).after 12 t) = _
  rw [after1_12]
  unfold out1_12
  rw [View.canon_unit_zero zero2]
  simp only [View.ld_unit_zero (S := S768x192) zero2, View.ld_unit_zero (S := S192x2048) zero2,
    View.ld_unit_zero (S := S1x2048) zero2, View.ld_unit_zero (S := S2048x1) zero2, View.ld_unit_zero (S := S1x1) zero2]
  funext j
  obtain ⟨r, u, rfl⟩ : ∃ (r : Fin 768) (u : Fin 1), j = (ix2 r u : S768x1.Idx) := ⟨j 0, j 1, eq_ix2 j⟩
  obtain rfl : u = 0 := Subsingleton.elim _ _
  show k1_pay1 (k1_pay2 (iblk1 V c 2 t)) (k1_pay3 (iblk1 V c 4 t)) (k1_pay4 (iblk1 V c 3 t)) (k1_pay5 (iblk1 V c 5 t))
        (k1_pay6 (iblk1 V c 6 t)) (k1_pay7 (iblk1 V c 7 t)) (k1_pay8 (iblk1 V c 8 t)) (k1_pay9 (iblk1 V c 9 t))
        (k1_pay10 (iblk1 V c 10 t)) (k1_pay11 (iblk1 V c 11 t))
        (k1_pay12 (iblk1 V c 2 t) (iblk1 V c 3 t) (iblk1 V c 6 t) (iblk1 V c 7 t) (iblk1 V c 8 t) (iblk1 V c 9 t)
          (iblk1 V c 0 t))
        (iblk1 V c 1 t) (ix2 r (0 : Fin 1))
    = mlpRows (V c main_v6) (V c main_v8) (V c main_v33) (V c main_v34) (V c main_v35) (V c main_v36) (V c main_v15) (V c main_v16) (V c main_v23) (V c main_v24) (V c main_v31) (V c main_v32) (((cfg1.win 12).blk t).view.emb (ix2 r (0 : Fin 1) : S768x1.Idx))
  refine (body_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) r).trans ?_
  refine Eq.trans ?_ (congrArg (mlpRows (V c main_v6) (V c main_v8) (V c main_v33) (V c main_v34) (V c main_v35) (V c main_v36) (V c main_v15) (V c main_v16) (V c main_v23) (V c main_v24) (V c main_v31) (V c main_v32)) (out_block t r).symm)
  refine Eq.trans ?_ (mlpRows_ix (V c main_v6) (V c main_v8) (V c main_v33) (V c main_v34) (V c main_v35) (V c main_v36) (V c main_v15) (V c main_v16) (V c main_v23) (V c main_v24) (V c main_v31) (V c main_v32) (rowOf t r) (0 : Fin 1)).symm
  rw [whole_block_2 V c t, whole_block_3 V c t, whole_block_4 V c t, whole_block_5 V c t, whole_block_6 V c t, whole_block_7 V c t, whole_block_8 V c t, whole_block_9 V c t, whole_block_10 V c t, whole_block_11 V c t]
  simp only [rows_block_a V c t r, rows_block_b V c t r]

/-- An index of the output array lies in point `t`'s tile iff each coordinate lies in the tile's range. -/
theorem mem_block (t : Fin cfg1.N) (i : S4608x1.Idx) :
    i ∈ ((cfg1.win 12).blk t).view.set ↔ ∀ a : Fin 2, win1_12.index t a * S768x1.size a ≤ (i a).val
      ∧ (i a).val < win1_12.index t a * S768x1.size a + S768x1.size a := by
  show i ∈ ((View.whole main_v37).slice (win1_12.rect t)).set ↔ _
  rw [View.set_slice_whole, Rect.mem_set_unit]
  exact Iff.rfl

/-- The point that covers a row: `row / 768`. -/
def pointOf (i : S4608x1.Idx) : Fin cfg1.N :=
  ⟨(i 0).val / 768, by have h0 : (i 0).val < 4608 := (i 0).isLt; have h6 : cfg1.N = 6 := N_1; omega⟩

theorem cover (i : S4608x1.Idx) :
    ∃ t : Fin cfg1.N, (cfg1.win 12).flush t = true ∧ i ∈ ((cfg1.win 12).blk t).view.set := by
  refine ⟨pointOf i, flush1_12 _, ?_⟩
  rw [mem_block]
  obtain ⟨-, -, -, -, e0, e1, -, -, -, -, -, -, -, -, -, -, -, -, -, -, -, -, -, -, -, -⟩ := index_facts (pointOf i)
  have hp : (pointOf i).val = (i 0).val / 768 := rfl
  have h0 : (i 0).val < 4608 := (i 0).isLt
  have h1 : (i 1).val < 1 := (i 1).isLt
  intro a
  match a with
  | ⟨0, _⟩ => show win1_12.index (pointOf i) (0 : Fin 2) * 768 ≤ (i 0).val ∧ (i 0).val < win1_12.index (pointOf i) (0 : Fin 2) * 768 + 768; omega
  | ⟨1, _⟩ => show win1_12.index (pointOf i) (1 : Fin 2) * 1 ≤ (i 1).val ∧ (i 1).val < win1_12.index (pointOf i) (1 : Fin 2) * 1 + 1; omega

/-- THE OUTPUT ARRAY after the pipeline. -/
theorem array (c : Dev nD) : (dat1 V c).arrAt 12 cfg1.N = mlpRows (V c main_v6) (V c main_v8) (V c main_v33) (V c main_v34) (V c main_v35) (V c main_v36) (V c main_v15) (V c main_v16) (V c main_v23) (V c main_v24) (V c main_v31) (V c main_v32) :=
  (dat1 V c).arrAt_eq_of_cover 12 _ (fun t _ => flushed_eq V c t) cover

end Cert.KernelIdeal.Mlp

end
-- ==== Proof.KernelFold.lean ====
/-
  The idealized kernel's result as a function of its arguments, read off the fold of buffer contents through @main.
  Host operations reshape the two inputs to [48, 192, 512] and [96, 192, 512] (the roundings to bf16 are the identity
  here); the score-and-pool pipeline leaves the two pooled arrays ([96, 48, 192]); host operations transpose and
  reshape them to one row per (query, memory) pair ([4608, 192]), and compute each batch norm's scale
  `g / sqrt (v + ε)` and shift `b - mean * scale` and the transposed weights; the MLP pipeline leaves the [4608, 1]
  output; a last reshape gives [48, 96].
-/
import proofs.«133369_j44135083933763_2_alg».proof.Proof.Gen.KernelIdeal.Frame
import proofs.«133369_j44135083933763_2_alg».proof.Proof.ScorePoolArray
import proofs.«133369_j44135083933763_2_alg».proof.Proof.MlpArray
import Idealize.ShloMosaic.Lib.StableHlo.Run
import Idealize.ShloMosaic.PureOps.Ideal

set_option maxRecDepth 16384

noncomputable section

namespace Cert.KernelIdeal.Fold

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- No operation of a stretch writes the buffer in question: each operation's one written buffer is another. -/
local macro "not_written_by " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments at the first pipeline's exit: as launched -/

theorem W2_main_arg2 (c : Dev nD) : W2 m ρ c (Proc.devRef .tc main_arg2) = m ((c : Thread nD τ).loc main_arg2) :=
  (W2_of_ne m ρ c main_arg2 (by decide)).trans
    (StableHlo.after_of_forall_not_mem (b := Proc.devRef .tc main_arg2) _ _ (by not_written_by hostOps0))
theorem W2_main_arg3 (c : Dev nD) : W2 m ρ c (Proc.devRef .tc main_arg3) = m ((c : Thread nD τ).loc main_arg3) :=
  (W2_of_ne m ρ c main_arg3 (by decide)).trans
    (StableHlo.after_of_forall_not_mem (b := Proc.devRef .tc main_arg3) _ _ (by not_written_by hostOps0))
theorem W2_main_arg4 (c : Dev nD) : W2 m ρ c (Proc.devRef .tc main_arg4) = m ((c : Thread nD τ).loc main_arg4) :=
  (W2_of_ne m ρ c main_arg4 (by decide)).trans
    (StableHlo.after_of_forall_not_mem (b := Proc.devRef .tc main_arg4) _ _ (by not_written_by hostOps0))
theorem W2_main_arg5 (c : Dev nD) : W2 m ρ c (Proc.devRef .tc main_arg5) = m ((c : Thread nD τ).loc main_arg5) :=
  (W2_of_ne m ρ c main_arg5 (by decide)).trans
    (StableHlo.after_of_forall_not_mem (b := Proc.devRef .tc main_arg5) _ _ (by not_written_by hostOps0))
theorem W2_main_arg6 (c : Dev nD) : W2 m ρ c (Proc.devRef .tc main_arg6) = m ((c : Thread nD τ).loc main_arg6) :=
  (W2_of_ne m ρ c main_arg6 (by decide)).trans
    (StableHlo.after_of_forall_not_mem (b := Proc.devRef .tc main_arg6) _ _ (by not_written_by hostOps0))
theorem W2_main_arg7 (c : Dev nD) : W2 m ρ c (Proc.devRef .tc main_arg7) = m ((c : Thread nD τ).loc main_arg7) :=
  (W2_of_ne m ρ c main_arg7 (by decide)).trans
    (StableHlo.after_of_forall_not_mem (b := Proc.devRef .tc main_arg7) _ _ (by not_written_by hostOps0))
theorem W2_main_arg8 (c : Dev nD) : W2 m ρ c (Proc.devRef .tc main_arg8) = m ((c : Thread nD τ).loc main_arg8) :=
  (W2_of_ne m ρ c main_arg8 (by decide)).trans
    (StableHlo.after_of_forall_not_mem (b := Proc.devRef .tc main_arg8) _ _ (by not_written_by hostOps0))
theorem W2_main_arg9 (c : Dev nD) : W2 m ρ c (Proc.devRef .tc main_arg9) = m ((c : Thread nD τ).loc main_arg9) :=
  (W2_of_ne m ρ c main_arg9 (by decide)).trans
    (StableHlo.after_of_forall_not_mem (b := Proc.devRef .tc main_arg9) _ _ (by not_written_by hostOps0))
theorem W2_main_arg10 (c : Dev nD) : W2 m ρ c (Proc.devRef .tc main_arg10) = m ((c : Thread nD τ).loc main_arg10) :=
  (W2_of_ne m ρ c main_arg10 (by decide)).trans
    (StableHlo.after_of_forall_not_mem (b := Proc.devRef .tc main_arg10) _ _ (by not_written_by hostOps0))
theorem W2_main_arg11 (c : Dev nD) : W2 m ρ c (Proc.devRef .tc main_arg11) = m ((c : Thread nD τ).loc main_arg11) :=
  (W2_of_ne m ρ c main_arg11 (by decide)).trans
    (StableHlo.after_of_forall_not_mem (b := Proc.devRef .tc main_arg11) _ _ (by not_written_by hostOps0))
theorem W2_main_arg12 (c : Dev nD) : W2 m ρ c (Proc.devRef .tc main_arg12) = m ((c : Thread nD τ).loc main_arg12) :=
  (W2_of_ne m ρ c main_arg12 (by decide)).trans
    (StableHlo.after_of_forall_not_mem (b := Proc.devRef .tc main_arg12) _ _ (by not_written_by hostOps0))
theorem W2_main_arg13 (c : Dev nD) : W2 m ρ c (Proc.devRef .tc main_arg13) = m ((c : Thread nD τ).loc main_arg13) :=
  (W2_of_ne m ρ c main_arg13 (by decide)).trans
    (StableHlo.after_of_forall_not_mem (b := Proc.devRef .tc main_arg13) _ _ (by not_written_by hostOps0))
theorem W2_main_arg14 (c : Dev nD) : W2 m ρ c (Proc.devRef .tc main_arg14) = m ((c : Thread nD τ).loc main_arg14) :=
  (W2_of_ne m ρ c main_arg14 (by decide)).trans
    (StableHlo.after_of_forall_not_mem (b := Proc.devRef .tc main_arg14) _ _ (by not_written_by hostOps0))
theorem W2_main_arg15 (c : Dev nD) : W2 m ρ c (Proc.devRef .tc main_arg15) = m ((c : Thread nD τ).loc main_arg15) :=
  (W2_of_ne m ρ c main_arg15 (by decide)).trans
    (StableHlo.after_of_forall_not_mem (b := Proc.devRef .tc main_arg15) _ _ (by not_written_by hostOps0))
theorem W2_main_arg16 (c : Dev nD) : W2 m ρ c (Proc.devRef .tc main_arg16) = m ((c : Thread nD τ).loc main_arg16) :=
  (W2_of_ne m ρ c main_arg16 (by decide)).trans
    (StableHlo.after_of_forall_not_mem (b := Proc.devRef .tc main_arg16) _ _ (by not_written_by hostOps0))
theorem W2_main_arg17 (c : Dev nD) : W2 m ρ c (Proc.devRef .tc main_arg17) = m ((c : Thread nD τ).loc main_arg17) :=
  (W2_of_ne m ρ c main_arg17 (by decide)).trans
    (StableHlo.after_of_forall_not_mem (b := Proc.devRef .tc main_arg17) _ _ (by not_written_by hostOps0))

/-! ## The first pipeline -/

/-- The target, [48, 192, 512]. -/
def targetArr (c : Dev nD) : S48x192x512.Idx → EReal :=
  shapeCast S48x192x512 (m ((c : Thread nD τ).loc main_arg0)) shapeCasts_S48x24x8x512_S48x192x512
/-- The memory, [96, 192, 512]. -/
def memoryArr (c : Dev nD) : S96x192x512.Idx → EReal :=
  shapeCast S96x192x512 (m ((c : Thread nD τ).loc main_arg1)) shapeCasts_S96x24x8x512_S96x192x512

theorem V1_target (c : Dev nD) : V1 m ρ c main_v2 = targetArr m c := by
  show StableHlo.after hostOps0 (W0 m ρ c) (Proc.devRef .tc main_v2) = _
  after_results_simp
  rfl

theorem V1_memory (c : Dev nD) : V1 m ρ c main_v3 = memoryArr m c := by
  show StableHlo.after hostOps0 (W0 m ρ c) (Proc.devRef .tc main_v3) = _
  after_results_simp
  rfl

theorem W2_pooledS (c : Dev nD) :
    W2 m ρ c (Proc.devRef .tc main_v4_0) = ScorePool.pooledOverS (targetArr m c) (memoryArr m c) := by
  refine (W2_arr m ρ c 2).trans ((ScorePool.arrayS (V1 m ρ) c).trans ?_)
  rw [V1_target, V1_memory]

theorem W2_pooledT (c : Dev nD) :
    W2 m ρ c (Proc.devRef .tc main_v4_1) = ScorePool.pooledOverT (targetArr m c) (memoryArr m c) := by
  refine (W2_arr m ρ c 3).trans ((ScorePool.arrayT (V1 m ρ) c).trans ?_)
  rw [V1_target, V1_memory]

/-! ## The second pipeline's entry arrays -/

def in_main_v6 (c : Dev nD) : S4608x192.Idx → EReal :=
  shapeCast S4608x192 (transpose S48x96x192 [1, 0, 2] (ScorePool.pooledOverS (targetArr m c) (memoryArr m c)) transposes_S96x48x192_S48x96x192_1_0_2) shapeCasts_S48x96x192_S4608x192

theorem V3_main_v6 (c : Dev nD) : V3 m ρ c main_v6 = in_main_v6 m c := by
  show StableHlo.after hostOps1 (W2 m ρ c) (Proc.devRef .tc main_v6) = _
  after_results_simp
  rw [W2_pooledS]
  rfl

def in_main_v8 (c : Dev nD) : S4608x192.Idx → EReal :=
  shapeCast S4608x192 (transpose S48x96x192 [1, 0, 2] (ScorePool.pooledOverT (targetArr m c) (memoryArr m c)) transposes_S96x48x192_S48x96x192_1_0_2) shapeCasts_S48x96x192_S4608x192

theorem V3_main_v8 (c : Dev nD) : V3 m ρ c main_v8 = in_main_v8 m c := by
  show StableHlo.after hostOps1 (W2 m ρ c) (Proc.devRef .tc main_v8) = _
  after_results_simp
  rw [W2_pooledT]
  rfl

def in_main_v33 (c : Dev nD) : S192x2048.Idx → EReal :=
  transpose S192x2048 [1, 0] (m ((c : Thread nD τ).loc main_arg2)) transposes_S2048x192_S192x2048_1_0

theorem V3_main_v33 (c : Dev nD) : V3 m ρ c main_v33 = in_main_v33 m c := by
  show StableHlo.after hostOps1 (W2 m ρ c) (Proc.devRef .tc main_v33) = _
  after_results_simp
  rw [W2_main_arg2]
  rfl

def in_main_v34 (c : Dev nD) : S1x2048.Idx → EReal :=
  shapeCast S1x2048 (m ((c : Thread nD τ).loc main_arg3)) shapeCasts_S2048_S1x2048

theorem V3_main_v34 (c : Dev nD) : V3 m ρ c main_v34 = in_main_v34 m c := by
  show StableHlo.after hostOps1 (W2 m ρ c) (Proc.devRef .tc main_v34) = _
  after_results_simp
  rw [W2_main_arg3]
  rfl

def in_main_v35 (c : Dev nD) : S2048x1.Idx → EReal :=
  transpose S2048x1 [1, 0] (m ((c : Thread nD τ).loc main_arg4)) transposes_S1x2048_S2048x1_1_0

theorem V3_main_v35 (c : Dev nD) : V3 m ρ c main_v35 = in_main_v35 m c := by
  show StableHlo.after hostOps1 (W2 m ρ c) (Proc.devRef .tc main_v35) = _
  after_results_simp
  rw [W2_main_arg4]
  rfl

def in_main_v36 (c : Dev nD) : S1x1.Idx → EReal :=
  shapeCast S1x1 (m ((c : Thread nD τ).loc main_arg5)) shapeCasts_S1_S1x1

theorem V3_main_v36 (c : Dev nD) : V3 m ρ c main_v36 = in_main_v36 m c := by
  show StableHlo.after hostOps1 (W2 m ρ c) (Proc.devRef .tc main_v36) = _
  after_results_simp
  rw [W2_main_arg5]
  rfl

def in_main_v15 (c : Dev nD) : S1x1.Idx → EReal :=
  shapeCast S1x1 (Host.divf (m ((c : Thread nD τ).loc main_arg6)) (Host.sqrt (addf (m ((c : Thread nD τ).loc main_arg9)) (broadcastInDim S1 ![] bcast_S_S1 (constant (F := Ideal) S_ .f32 0x3727C5AC#32))))) shapeCasts_S1_S1x1

theorem V3_main_v15 (c : Dev nD) : V3 m ρ c main_v15 = in_main_v15 m c := by
  show StableHlo.after hostOps1 (W2 m ρ c) (Proc.devRef .tc main_v15) = _
  after_results_simp
  rw [W2_main_arg6, W2_main_arg9]
  rfl

def in_main_v16 (c : Dev nD) : S1x1.Idx → EReal :=
  shapeCast S1x1 (subf (m ((c : Thread nD τ).loc main_arg7)) (mulf (m ((c : Thread nD τ).loc main_arg8)) (Host.divf (m ((c : Thread nD τ).loc main_arg6)) (Host.sqrt (addf (m ((c : Thread nD τ).loc main_arg9)) (broadcastInDim S1 ![] bcast_S_S1 (constant (F := Ideal) S_ .f32 0x3727C5AC#32))))))) shapeCasts_S1_S1x1

theorem V3_main_v16 (c : Dev nD) : V3 m ρ c main_v16 = in_main_v16 m c := by
  show StableHlo.after hostOps1 (W2 m ρ c) (Proc.devRef .tc main_v16) = _
  after_results_simp
  rw [W2_main_arg6, W2_main_arg7, W2_main_arg8, W2_main_arg9]
  rfl

def in_main_v23 (c : Dev nD) : S1x2048.Idx → EReal :=
  shapeCast S1x2048 (Host.divf (m ((c : Thread nD τ).loc main_arg10)) (Host.sqrt (addf (m ((c : Thread nD τ).loc main_arg13)) (broadcastInDim S2048 ![] bcast_S_S2048 (constant (F := Ideal) S_ .f32 0x3727C5AC#32))))) shapeCasts_S2048_S1x2048

theorem V3_main_v23 (c : Dev nD) : V3 m ρ c main_v23 = in_main_v23 m c := by
  show StableHlo.after hostOps1 (W2 m ρ c) (Proc.devRef .tc main_v23) = _
  after_results_simp
  rw [W2_main_arg10, W2_main_arg13]
  rfl

def in_main_v24 (c : Dev nD) : S1x2048.Idx → EReal :=
  shapeCast S1x2048 (subf (m ((c : Thread nD τ).loc main_arg11)) (mulf (m ((c : Thread nD τ).loc main_arg12)) (Host.divf (m ((c : Thread nD τ).loc main_arg10)) (Host.sqrt (addf (m ((c : Thread nD τ).loc main_arg13)) (broadcastInDim S2048 ![] bcast_S_S2048 (constant (F := Ideal) S_ .f32 0x3727C5AC#32))))))) shapeCasts_S2048_S1x2048

theorem V3_main_v24 (c : Dev nD) : V3 m ρ c main_v24 = in_main_v24 m c := by
  show StableHlo.after hostOps1 (W2 m ρ c) (Proc.devRef .tc main_v24) = _
  after_results_simp
  rw [W2_main_arg10, W2_main_arg11, W2_main_arg12, W2_main_arg13]
  rfl

def in_main_v31 (c : Dev nD) : S1x1.Idx → EReal :=
  shapeCast S1x1 (Host.divf (m ((c : Thread nD τ).loc main_arg14)) (Host.sqrt (addf (m ((c : Thread nD τ).loc main_arg17)) (broadcastInDim S1 ![] bcast_S_S1 (constant (F := Ideal) S_ .f32 0x3727C5AC#32))))) shapeCasts_S1_S1x1

theorem V3_main_v31 (c : Dev nD) : V3 m ρ c main_v31 = in_main_v31 m c := by
  show StableHlo.after hostOps1 (W2 m ρ c) (Proc.devRef .tc main_v31) = _
  after_results_simp
  rw [W2_main_arg14, W2_main_arg17]
  rfl

def in_main_v32 (c : Dev nD) : S1x1.Idx → EReal :=
  shapeCast S1x1 (subf (m ((c : Thread nD τ).loc main_arg15)) (mulf (m ((c : Thread nD τ).loc main_arg16)) (Host.divf (m ((c : Thread nD τ).loc main_arg14)) (Host.sqrt (addf (m ((c : Thread nD τ).loc main_arg17)) (broadcastInDim S1 ![] bcast_S_S1 (constant (F := Ideal) S_ .f32 0x3727C5AC#32))))))) shapeCasts_S1_S1x1

theorem V3_main_v32 (c : Dev nD) : V3 m ρ c main_v32 = in_main_v32 m c := by
  show StableHlo.after hostOps1 (W2 m ρ c) (Proc.devRef .tc main_v32) = _
  after_results_simp
  rw [W2_main_arg14, W2_main_arg15, W2_main_arg16, W2_main_arg17]
  rfl

/-! ## The result -/

/-- The kernel's result array as one function of the argument arrays. -/
def value (c : Dev nD) : S48x96.Idx → EReal :=
  shapeCast S48x96 (Mlp.mlpRows (in_main_v6 m c) (in_main_v8 m c) (in_main_v33 m c) (in_main_v34 m c) (in_main_v35 m c) (in_main_v36 m c) (in_main_v15 m c) (in_main_v16 m c) (in_main_v23 m c) (in_main_v24 m c) (in_main_v31 m c) (in_main_v32 m c)) shapeCasts_S4608x1_S48x96

theorem W4_out (c : Dev nD) :
    W4 m ρ c (Proc.devRef .tc main_v37) = Mlp.mlpRows (in_main_v6 m c) (in_main_v8 m c) (in_main_v33 m c) (in_main_v34 m c) (in_main_v35 m c) (in_main_v36 m c) (in_main_v15 m c) (in_main_v16 m c) (in_main_v23 m c) (in_main_v24 m c) (in_main_v31 m c) (in_main_v32 m c) := by
  refine (W4_arr m ρ c 12).trans ((Mlp.array (V3 m ρ) c).trans ?_)
  rw [V3_main_v6 m ρ c, V3_main_v8 m ρ c, V3_main_v33 m ρ c, V3_main_v34 m ρ c, V3_main_v35 m ρ c, V3_main_v36 m ρ c, V3_main_v15 m ρ c, V3_main_v16 m ρ c, V3_main_v23 m ρ c, V3_main_v24 m ρ c, V3_main_v31 m ρ c, V3_main_v32 m ρ c]

/-- THE RESULT BUFFER's final contents. -/
theorem result_eq (c : Dev nD) : W5 m ρ c (Proc.devRef .tc main_v38) = value m c := by
  show StableHlo.after hostOps2 (W4 m ρ c) (Proc.devRef .tc main_v38) = _
  after_results_simp
  rw [W4_out]
  rfl

end Cert.KernelIdeal.Fold

end
-- ==== Proof.BatchNormLaw.lean ====
/-
  The one algebraic law between the two programs. An eval-mode batch norm with mean `m`, scale `s` and offset `b` is
  written `(x - m) * s + b` by the reference and `x * s + (b - m * s)` by the kernel (which folds the mean into a
  shift beforehand). On the extended reals the two agree for EVERY `x`, infinite or not, as soon as `m`, `s` and `b`
  are real numbers: a real `s` distributes over a sum with one real summand. (With an infinite scale they differ:
  `(x - m) * ⊤` follows the sign of `x - m`, while `x * ⊤ + (b - m * ⊤)` is `⊥` whenever `m > 0`.)
  The scale is `g / sqrt (v + e)`; it is a real number when `g`, `v`, `e` are and `v + e` is positive.
-/
import Idealize.ShloMosaic.PureOps.Ideal

noncomputable section

namespace Cert.BatchNormLaw

open Idealize.ShloMosaic

/-- `(x - m) * s + b = x * s + (b - m * s)` for any extended real `x` and real `m`, `s`, `b`. -/
theorem bn_law (x : EReal) (m s b : ℝ) :
    (x - (m : EReal)) * (s : EReal) + (b : EReal) = x * (s : EReal) + ((b : EReal) - (m : EReal) * (s : EReal)) := by
  induction x using EReal.rec with
  | bot =>
    rcases lt_trichotomy s 0 with hs | rfl | hs
    · rw [EReal.bot_sub, EReal.bot_mul_coe_of_neg hs, ← EReal.coe_mul, ← EReal.coe_sub, EReal.top_add_coe,
        EReal.top_add_coe]
    · simp
    · rw [EReal.bot_sub, EReal.bot_mul_coe_of_pos hs, EReal.bot_add, EReal.bot_add]
  | coe x => exact_mod_cast (by ring : (x - m) * s + b = x * s + (b - m * s))
  | top =>
    rcases lt_trichotomy s 0 with hs | rfl | hs
    · rw [EReal.top_sub_coe, EReal.top_mul_coe_of_neg hs, EReal.bot_add, EReal.bot_add]
    · simp
    · rw [EReal.top_sub_coe, EReal.top_mul_coe_of_pos hs, ← EReal.coe_mul, ← EReal.coe_sub, EReal.top_add_coe,
        EReal.top_add_coe]

/-- The scale `g / sqrt (v + e)` of a batch norm is a real number when `v + e > 0`. -/
theorem scale_real (g v e : ℝ) (h : 0 < v + e) :
    ∃ s : ℝ, Ideal.div (g : EReal) (Ideal.sqrt ((v : EReal) + (e : EReal))) = (s : EReal) := by
  refine ⟨g * (1 / Real.sqrt (v + e)), ?_⟩
  rw [← EReal.coe_add, Ideal.sqrt_coe, if_neg (not_lt.mpr h.le),
    Ideal.div_coe (Real.sqrt_ne_zero'.mpr h), ← EReal.coe_mul]

/-- A pair summed from zero, as the reference's reduction over an axis of extent two spells it. -/
theorem zero_add_sum_two (f : Fin 2 → EReal) : 0 + ∑ k : Fin 2, f k = f 0 + f 1 := by
  rw [zero_add, Fin.sum_univ_two]

end Cert.BatchNormLaw

end
-- ==== Proof.Forms.lean ====
/-
  The two programs' result at one (query, memory) pair, as scalar formulas, and their equality.

  Fix the pair. Let `xa t` be the maximum over memory positions `s` of the score at `(t, s)` and `xb s` the maximum over
  target positions `t`. With first-layer weights `w2 s f`, bias `c2 f`, second-layer weights `w3 f`, bias `c3`, relu
  threshold `z`, and three batch norms with means `m`, scales `s` and offsets `b`:

  * the kernel folds each mean into a shift `b - m * s` and computes, per row `x`,
      `brK x = (∑ f, max (((∑ s, (x s * s1 + (b1 - m1 * s1)) * w2 s f) + c2 f) * s2 f + (b2 f - m2 f * s2 f)) z * w3 f) + c3`,
    and the output `(brK xa + brK xb) * s3 + (b3 - m3 * s3)`;
  * the reference subtracts the mean first, `((· - m) * s + b)`, runs the rows interleaved and sums each pair from
    zero: `((0 + ∑ p : Fin 2, brR (row p)) - m3) * s3 + b3`.

  They agree as soon as the nine batch-norm parameters are real numbers (`BatchNormLaw.bn_law`); the rows themselves may
  be any extended reals. A scale is `g / sqrt (v + e)`, real when `g`, `v`, `e` are and `v + e > 0`.
-/
import proofs.«133369_j44135083933763_2_alg».proof.Proof.BatchNormLaw
import Idealize.ShloMosaic.Lib.ValueIdx

noncomputable section

open scoped BigOperators

namespace Cert.Forms

open Idealize.ShloMosaic Cert.BatchNormLaw

/-- A batch norm's scale as both programs compute it. -/
def scale (g v e : EReal) : EReal := Ideal.div g (Ideal.sqrt (v + e))

variable (w2 : Fin 192 → Fin 2048 → EReal) (c2 w3 : Fin 2048 → EReal) (c3 z : EReal)
variable (m1 s1 b1 : EReal) (m2 s2 b2 : Fin 2048 → EReal) (m3 s3 b3 : EReal)

/-- One row through the MLP, the kernel's way (means folded into shifts). -/
def brK (x : Fin 192 → EReal) : EReal :=
  (∑ f : Fin 2048, max (((∑ s : Fin 192, (x s * s1 + (b1 - m1 * s1)) * w2 s f) + c2 f) * s2 f + (b2 f - m2 f * s2 f)) z
    * w3 f) + c3

/-- One row through the MLP, the reference's way (means subtracted first). -/
def brR (x : Fin 192 → EReal) : EReal :=
  (∑ f : Fin 2048, max ((((∑ s : Fin 192, ((x s - m1) * s1 + b1) * w2 s f) + c2 f) - m2 f) * s2 f + b2 f) z
    * w3 f) + c3

/-- The kernel's output for the pair. -/
def outK (xa xb : Fin 192 → EReal) : EReal :=
  (brK w2 c2 w3 c3 z m1 s1 b1 m2 s2 b2 xa + brK w2 c2 w3 c3 z m1 s1 b1 m2 s2 b2 xb) * s3 + (b3 - m3 * s3)

/-- The reference's output for the pair: the two rows' values summed from zero, then the last batch norm. -/
def outR (xa xb : Fin 192 → EReal) : EReal :=
  ((0 + ∑ p : Fin 2, brR w2 c2 w3 c3 z m1 s1 b1 m2 s2 b2 (if p = 0 then xa else xb)) - m3) * s3 + b3

variable {w2 c2 w3 c3 z m1 s1 b1 m2 s2 b2 m3 s3 b3}

/-- With real batch-norm parameters the two ways of running a row agree. -/
theorem brK_eq_brR (hm1 : ∃ r : ℝ, m1 = r) (hs1 : ∃ r : ℝ, s1 = r) (hb1 : ∃ r : ℝ, b1 = r)
    (hm2 : ∀ f, ∃ r : ℝ, m2 f = r) (hs2 : ∀ f, ∃ r : ℝ, s2 f = r) (hb2 : ∀ f, ∃ r : ℝ, b2 f = r)
    (x : Fin 192 → EReal) :
    brK w2 c2 w3 c3 z m1 s1 b1 m2 s2 b2 x = brR w2 c2 w3 c3 z m1 s1 b1 m2 s2 b2 x := by
  obtain ⟨m1', rfl⟩ := hm1; obtain ⟨s1', rfl⟩ := hs1; obtain ⟨b1', rfl⟩ := hb1
  unfold brK brR
  refine congrArg (· + c3) (Finset.sum_congr rfl fun f _ => ?_)
  obtain ⟨m2', e2⟩ := hm2 f; obtain ⟨s2', e3⟩ := hs2 f; obtain ⟨b2', e4⟩ := hb2 f
  rw [e2, e3, e4]
  refine congrArg (fun y => max y z * w3 f) ?_
  rw [bn_law _ m2' s2' b2']
  refine congrArg (fun y => (y + c2 f) * (s2' : EReal) + ((b2' : EReal) - (m2' : EReal) * (s2' : EReal))) ?_
  exact Finset.sum_congr rfl fun s _ => congrArg (· * w2 s f) (bn_law (x s) m1' s1' b1').symm

/-- With real batch-norm parameters the two programs' outputs for the pair agree. -/
theorem outK_eq_outR (hm1 : ∃ r : ℝ, m1 = r) (hs1 : ∃ r : ℝ, s1 = r) (hb1 : ∃ r : ℝ, b1 = r)
    (hm2 : ∀ f, ∃ r : ℝ, m2 f = r) (hs2 : ∀ f, ∃ r : ℝ, s2 f = r) (hb2 : ∀ f, ∃ r : ℝ, b2 f = r)
    (hm3 : ∃ r : ℝ, m3 = r) (hs3 : ∃ r : ℝ, s3 = r) (hb3 : ∃ r : ℝ, b3 = r) (xa xb : Fin 192 → EReal) :
    outK w2 c2 w3 c3 z m1 s1 b1 m2 s2 b2 m3 s3 b3 xa xb = outR w2 c2 w3 c3 z m1 s1 b1 m2 s2 b2 m3 s3 b3 xa xb := by
  unfold outK outR
  rw [zero_add_sum_two, brK_eq_brR hm1 hs1 hb1 hm2 hs2 hb2 xa, brK_eq_brR hm1 hs1 hb1 hm2 hs2 hb2 xb]
  obtain ⟨m3', rfl⟩ := hm3; obtain ⟨s3', rfl⟩ := hs3; obtain ⟨b3', rfl⟩ := hb3
  exact (bn_law _ m3' s3' b3').symm

/-- A scale is a real number when its three inputs are and `v + e` is positive. -/
theorem scale_real' {g v e : EReal} (hg : ∃ r : ℝ, g = r) (hv : ∃ r : ℝ, v = r) (he : ∃ r : ℝ, e = r) (hpos : 0 < v + e) :
    ∃ r : ℝ, scale g v e = r := by
  obtain ⟨g', rfl⟩ := hg; obtain ⟨v', rfl⟩ := hv; obtain ⟨e', rfl⟩ := he
  exact scale_real g' v' e' (by exact_mod_cast hpos)

/-! ## The pair's output as a function of the argument arrays -/

section Pair

open Idealize.ShloMosaic.ValueIdx

/-- The pattern of -∞, from which each maximum starts; of zero, the relu's threshold; of ε. -/
abbrev negInfW : EReal := Ideal.ofBits .f32 0xFF800000#32
abbrev zeroW : EReal := Ideal.ofBits .f32 0x00000000#32
abbrev epsW : EReal := Ideal.ofBits .f32 0x3727C5AC#32

variable (A : (⟨3, ![48, 192, 512]⟩ : Shape).Idx → EReal) (B : (⟨3, ![96, 192, 512]⟩ : Shape).Idx → EReal)
variable (a2 : (⟨2, ![2048, 192]⟩ : Shape).Idx → EReal) (a3 : (⟨1, ![2048]⟩ : Shape).Idx → EReal) (a4 : (⟨2, ![1, 2048]⟩ : Shape).Idx → EReal)
variable (a5 a6 a7 a8 a9 : (⟨1, ![1]⟩ : Shape).Idx → EReal) (a10 a11 a12 a13 : (⟨1, ![2048]⟩ : Shape).Idx → EReal) (a14 a15 a16 a17 : (⟨1, ![1]⟩ : Shape).Idx → EReal)

/-- The kernel's output for the pair `(q, k)`: target `A`, memory `B`, the parameters read at their coordinates;
    each score is `∑ d, A (q, t, d) * B (k, s, d)`. -/
def pairK (q : Fin 48) (k : Fin 96) : EReal :=
  outK (fun s f => a2 (ix2 f s)) (fun f => a3 (ix1 f)) (fun f => a4 (ix2 0 f)) (a5 (ix1 0)) zeroW
    (a8 (ix1 0)) (scale (a6 (ix1 0)) (a9 (ix1 0)) epsW) (a7 (ix1 0))
    (fun f => a12 (ix1 f)) (fun f => scale (a10 (ix1 f)) (a13 (ix1 f)) epsW) (fun f => a11 (ix1 f))
    (a16 (ix1 0)) (scale (a14 (ix1 0)) (a17 (ix1 0)) epsW) (a15 (ix1 0))
    (fun t => (Finset.univ : Finset (Fin 192)).fold max negInfW (fun s => ∑ d : Fin 512, A (ix3 q t d) * B (ix3 k s d)))
    (fun s => (Finset.univ : Finset (Fin 192)).fold max negInfW (fun t => ∑ d : Fin 512, A (ix3 q t d) * B (ix3 k s d)))

/-- The reference's output for the pair: the same, its way, each score `∑ d, B (k, s, d) * A (q, t, d)`. -/
def pairR (q : Fin 48) (k : Fin 96) : EReal :=
  outR (fun s f => a2 (ix2 f s)) (fun f => a3 (ix1 f)) (fun f => a4 (ix2 0 f)) (a5 (ix1 0)) zeroW
    (a8 (ix1 0)) (scale (a6 (ix1 0)) (a9 (ix1 0)) epsW) (a7 (ix1 0))
    (fun f => a12 (ix1 f)) (fun f => scale (a10 (ix1 f)) (a13 (ix1 f)) epsW) (fun f => a11 (ix1 f))
    (a16 (ix1 0)) (scale (a14 (ix1 0)) (a17 (ix1 0)) epsW) (a15 (ix1 0))
    (fun t => (Finset.univ : Finset (Fin 192)).fold max negInfW (fun s => ∑ d : Fin 512, B (ix3 k s d) * A (ix3 q t d)))
    (fun s => (Finset.univ : Finset (Fin 192)).fold max negInfW (fun t => ∑ d : Fin 512, B (ix3 k s d) * A (ix3 q t d)))

variable {A B a2 a3 a4 a5 a6 a7 a8 a9 a10 a11 a12 a13 a14 a15 a16 a17}

/-- With real batch-norm parameters, a real ε and positive `v + ε`, the two programs' outputs for every pair agree. -/
theorem pairK_eq_pairR (he : ∃ e : ℝ, epsW = e)
    (r6 : ∀ i, ∃ r : ℝ, a6 i = r) (r7 : ∀ i, ∃ r : ℝ, a7 i = r) (r8 : ∀ i, ∃ r : ℝ, a8 i = r) (r9 : ∀ i, ∃ r : ℝ, a9 i = r)
    (r10 : ∀ i, ∃ r : ℝ, a10 i = r) (r11 : ∀ i, ∃ r : ℝ, a11 i = r) (r12 : ∀ i, ∃ r : ℝ, a12 i = r)
    (r13 : ∀ i, ∃ r : ℝ, a13 i = r) (r14 : ∀ i, ∃ r : ℝ, a14 i = r) (r15 : ∀ i, ∃ r : ℝ, a15 i = r)
    (r16 : ∀ i, ∃ r : ℝ, a16 i = r) (r17 : ∀ i, ∃ r : ℝ, a17 i = r)
    (p9 : ∀ i, 0 < a9 i + epsW) (p13 : ∀ i, 0 < a13 i + epsW) (p17 : ∀ i, 0 < a17 i + epsW)
    (q : Fin 48) (k : Fin 96) :
    pairK A B a2 a3 a4 a5 a6 a7 a8 a9 a10 a11 a12 a13 a14 a15 a16 a17 q k
      = pairR A B a2 a3 a4 a5 a6 a7 a8 a9 a10 a11 a12 a13 a14 a15 a16 a17 q k := by
  unfold pairK pairR
  have hcomm : ∀ (t s : Fin 192), (∑ d : Fin 512, A (ix3 q t d) * B (ix3 k s d)) = ∑ d : Fin 512, B (ix3 k s d) * A (ix3 q t d) :=
    fun t s => Finset.sum_congr rfl fun d _ => mul_comm _ _
  simp only [hcomm]
  exact outK_eq_outR (r8 _) (scale_real' (r6 _) (r9 _) he (p9 _)) (r7 _)
    (fun f => r12 _) (fun f => scale_real' (r10 _) (r13 _) he (p13 _)) (fun f => r11 _)
    (r16 _) (scale_real' (r14 _) (r17 _) he (p17 _)) (r15 _) _ _

end Pair

end Cert.Forms

end
-- ==== Proof.KernelValue.lean ====
/-
  The idealized kernel's result at one (query `q`, memory `k`) pair, as the scalar formula `Forms.pairK` of the
  argument arrays. The result array is [48, 96], a reshape of the MLP's [4608, 1] output, so the pair is row
  `96 q + k`; that row of each pooled array is, after the transposition `(k, q, ·) ↦ (q, k, ·)` and the reshape, the
  pooled values of the pair; every parameter is read at its coordinates through the reshapes and transpositions the
  host applied (a scale is `g / sqrt (v + ε)`, a shift `b - mean * scale`).
-/
import proofs.«133369_j44135083933763_2_alg».proof.Proof.KernelFold
import proofs.«133369_j44135083933763_2_alg».proof.Proof.Forms
import Idealize.ShloMosaic.Lib.ValueLayout

set_option maxRecDepth 16384

noncomputable section

open scoped BigOperators

namespace Cert.KernelIdeal.At

open Cert.KernelIdeal Cert.KernelIdeal.Gen Cert.KernelIdeal.Fold Cert.Forms
open Idealize.ShloMosaic Idealize.ShloMosaic.TcCoe Idealize.ShloMosaic.ValueIdx Idealize.SL.Sem

variable (m : (ℓ : Loc nD τ sig) → Buf (Elt Ideal) ℓ)

/-- The scalar ε broadcast to any shape reads ε everywhere. -/
theorem eps_read {S : Shape} (hb : S_.BroadcastsInDim S ![]) (i : S.Idx) :
    broadcastInDim S ![] hb (constant (F := Ideal) S_ .f32 0x3727C5AC#32) i = epsW :=
  (broadcastInDim_apply ![] hb _ i ix0 (fun a => a.elim0)).trans rfl

/-- A scale array at an index. -/
theorem scale_read {S : Shape} (hb : S_.BroadcastsInDim S ![]) (g v : FVec Ideal S .f32) (i : S.Idx) :
    Host.divf g (Host.sqrt (addf v (broadcastInDim S ![] hb (constant (F := Ideal) S_ .f32 0x3727C5AC#32)))) i
      = scale (g i) (v i) epsW := by
  show Ideal.div (g i) (Ideal.sqrt (v i + broadcastInDim S ![] hb (constant (F := Ideal) S_ .f32 0x3727C5AC#32) i)) = _
  rw [eps_read]; rfl

/-- A shift array at an index. -/
theorem shift_read {S : Shape} (hb : S_.BroadcastsInDim S ![]) (b mu g v : FVec Ideal S .f32) (i : S.Idx) :
    subf b (mulf mu (Host.divf g (Host.sqrt (addf v (broadcastInDim S ![] hb (constant (F := Ideal) S_ .f32 0x3727C5AC#32)))))) i
      = b i - mu i * scale (g i) (v i) epsW := by
  show b i - mu i * (Host.divf g (Host.sqrt (addf v (broadcastInDim S ![] hb (constant (F := Ideal) S_ .f32 0x3727C5AC#32)))) i) = _
  rw [scale_read]

/-- A shift: the offset minus the mean times the scale. -/
abbrev shiftOf (b mu s : EReal) : EReal := b - mu * s

theorem shift_read' {S : Shape} (hb : S_.BroadcastsInDim S ![]) (b mu g v : FVec Ideal S .f32) (i : S.Idx) :
    subf b (mulf mu (Host.divf g (Host.sqrt (addf v (broadcastInDim S ![] hb (constant (F := Ideal) S_ .f32 0x3727C5AC#32)))))) i
      = shiftOf (b i) (mu i) (scale (g i) (v i) epsW) := shift_read hb b mu g v i

theorem read_w2 (c : Dev nD) (s : Fin 192) (f : Fin 2048) : in_main_v33 m c (ix2 s f) = (m ((c : Thread nD τ).loc main_arg2)) (ix2 f s) :=
  transpose_ix2_apply _ _ s f
theorem read_c2 (c : Dev nD) (f : Fin 2048) : in_main_v34 m c (ix2 (0 : Fin 1) f) = (m ((c : Thread nD τ).loc main_arg3)) (ix1 f) :=
  shapeCast_a_1a_apply _ _ (0 : Fin 1) f
theorem read_w3 (c : Dev nD) (f : Fin 2048) : in_main_v35 m c (ix2 f (0 : Fin 1)) = (m ((c : Thread nD τ).loc main_arg4)) (ix2 (0 : Fin 1) f) :=
  transpose_ix2_apply _ _ f (0 : Fin 1)
theorem read_c3 (c : Dev nD) : in_main_v36 m c (ix2 (0 : Fin 1) (0 : Fin 1)) = (m ((c : Thread nD τ).loc main_arg5)) (ix1 0) :=
  shapeCast_a_1a_apply _ _ (0 : Fin 1) (0 : Fin 1)
theorem read_s1 (c : Dev nD) : in_main_v15 m c (ix2 (0 : Fin 1) (0 : Fin 1)) = scale ((m ((c : Thread nD τ).loc main_arg6)) (ix1 0)) ((m ((c : Thread nD τ).loc main_arg9)) (ix1 0)) epsW :=
  (shapeCast_a_1a_apply _ _ (0 : Fin 1) (0 : Fin 1)).trans (scale_read _ _ _ _)
theorem read_h1 (c : Dev nD) : in_main_v16 m c (ix2 (0 : Fin 1) (0 : Fin 1))
    = shiftOf ((m ((c : Thread nD τ).loc main_arg7)) (ix1 0)) ((m ((c : Thread nD τ).loc main_arg8)) (ix1 0)) (scale ((m ((c : Thread nD τ).loc main_arg6)) (ix1 0)) ((m ((c : Thread nD τ).loc main_arg9)) (ix1 0)) epsW) :=
  (shapeCast_a_1a_apply _ _ (0 : Fin 1) (0 : Fin 1)).trans (shift_read' _ _ _ _ _ _)
theorem read_s2 (c : Dev nD) (f : Fin 2048) : in_main_v23 m c (ix2 (0 : Fin 1) f) = scale ((m ((c : Thread nD τ).loc main_arg10)) (ix1 f)) ((m ((c : Thread nD τ).loc main_arg13)) (ix1 f)) epsW :=
  (shapeCast_a_1a_apply _ _ (0 : Fin 1) f).trans (scale_read _ _ _ _)
theorem read_h2 (c : Dev nD) (f : Fin 2048) : in_main_v24 m c (ix2 (0 : Fin 1) f)
    = shiftOf ((m ((c : Thread nD τ).loc main_arg11)) (ix1 f)) ((m ((c : Thread nD τ).loc main_arg12)) (ix1 f)) (scale ((m ((c : Thread nD τ).loc main_arg10)) (ix1 f)) ((m ((c : Thread nD τ).loc main_arg13)) (ix1 f)) epsW) :=
  (shapeCast_a_1a_apply _ _ (0 : Fin 1) f).trans (shift_read' _ _ _ _ _ _)
theorem read_s3 (c : Dev nD) : in_main_v31 m c (ix2 (0 : Fin 1) (0 : Fin 1)) = scale ((m ((c : Thread nD τ).loc main_arg14)) (ix1 0)) ((m ((c : Thread nD τ).loc main_arg17)) (ix1 0)) epsW :=
  (shapeCast_a_1a_apply _ _ (0 : Fin 1) (0 : Fin 1)).trans (scale_read _ _ _ _)
theorem read_h3 (c : Dev nD) : in_main_v32 m c (ix2 (0 : Fin 1) (0 : Fin 1))
    = shiftOf ((m ((c : Thread nD τ).loc main_arg15)) (ix1 0)) ((m ((c : Thread nD τ).loc main_arg16)) (ix1 0)) (scale ((m ((c : Thread nD τ).loc main_arg14)) (ix1 0)) ((m ((c : Thread nD τ).loc main_arg17)) (ix1 0)) epsW) :=
  (shapeCast_a_1a_apply _ _ (0 : Fin 1) (0 : Fin 1)).trans (shift_read' _ _ _ _ _ _)

/-- Row `96 q + k`. -/
def pairRow (q : Fin 48) (k : Fin 96) : Fin 4608 := ⟨q.val * 96 + k.val, by have := q.isLt; have := k.isLt; omega⟩

/-- A pooled array ([96, 48, 192]) transposed to [48, 96, 192] and reshaped to [4608, 192], at the pair's row. -/
theorem pooled_row (P : S96x48x192.Idx → EReal) (q : Fin 48) (k : Fin 96) (p : Fin 192) :
    shapeCast S4608x192 (transpose S48x96x192 [1, 0, 2] P transposes_S96x48x192_S48x96x192_1_0_2)
        shapeCasts_S48x96x192_S4608x192 (ix2 (pairRow q k) p) = P (ix3 k q p) := by
  refine (shapeCast_apply _ _ (ix2 (pairRow q k) p) (ix3 q k p) (by
    rw [Shape.rowMajor_val_two, Shape.rowMajor_val_three]; rfl)).trans ?_
  exact transpose_apply _ P _ (ix3 q k p) (ix3 k q p) fun b => match b with
    | ⟨0, _⟩ => rfl | ⟨1, _⟩ => rfl | ⟨2, _⟩ => rfl

theorem read_xa (c : Dev nD) (q : Fin 48) (k : Fin 96) (t : Fin 192) :
    in_main_v6 m c (ix2 (pairRow q k) t)
      = (Finset.univ : Finset (Fin 192)).fold max negInfW
          (fun s => ∑ d : Fin 512, targetArr m c (ix3 q t d) * memoryArr m c (ix3 k s d)) :=
  (pooled_row _ q k t).trans (ScorePool.pooledOverS_ix _ _ k q t)

theorem read_xb (c : Dev nD) (q : Fin 48) (k : Fin 96) (s : Fin 192) :
    in_main_v8 m c (ix2 (pairRow q k) s)
      = (Finset.univ : Finset (Fin 192)).fold max negInfW
          (fun t => ∑ d : Fin 512, targetArr m c (ix3 q t d) * memoryArr m c (ix3 k s d)) :=
  (pooled_row _ q k s).trans (ScorePool.pooledOverT_ix _ _ k q s)

/-- THE KERNEL'S RESULT at the pair `(q, k)`. -/
theorem value_at (c : Dev nD) (q : Fin 48) (k : Fin 96) :
    Fold.value m c (ix2 q k)
      = pairK (targetArr m c) (memoryArr m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) q k := by
  unfold Fold.value
  refine (shapeCast_apply _ _ (ix2 q k) (ix2 (pairRow q k) (0 : Fin 1)) (by
    rw [Shape.rowMajor_val_two, Shape.rowMajor_val_two]; show (q.val * 96 + k.val) * 1 + 0 = q.val * 96 + k.val; omega)).trans ?_
  rw [Mlp.mlpRows_ix]
  unfold Mlp.branch Mlp.hidden pairK outK brK
  simp only [read_w2, read_c2, read_w3, read_c3, read_s1, read_h1, read_s2, read_h2, read_s3, read_h3, read_xa, read_xb]

end Cert.KernelIdeal.At

end
-- ==== Proof.RefResult.lean ====
/-
  The reference's result as a function of its arguments. Its run leaves every buffer at the fold of the 71 host
  operations over the launch contents. The list is cut after its first nine operations — the two reshapes, the
  contraction over the feature axis, the transpose and reshape to [4608, 192, 192], and the two maxima — because the
  tenth, the concatenation of the two pooled arrays, takes its operands as a list: the contents at the cut are read
  first (each pooled array as the stage that computes it; each remaining argument as launched), and the remaining 62
  operations are then read over those contents. The composed value is the last stage, `val_main_v62`, of the arguments.
-/
import proofs.«133369_j44135083933763_2_alg».proof.Proof.RefReadPatched

noncomputable section

namespace Cert.ReferenceIdeal.Result

open Cert.ReferenceIdeal Cert.ReferenceIdeal.Gen Idealize.ShloMosaic Idealize.ShloMosaic.TcCoe Idealize.SL.Sem
open Idealize.ShloMosaic.StableHlo

/-- The contents after a list of operations followed by another: the second list's fold over the first's. -/
theorem after_append {Val : FTy → Type} (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

variable (m : (ℓ : Loc nD τ sig) → Buf (Elt Ideal) ℓ)

/-- The first nine operations (up to the two maxima). -/
abbrev pre : List (HloOp τ sig (Elt Ideal)) := (ValueP.ops (F := Ideal)).take 9
/-- The other sixty-two. -/
abbrev post : List (HloOp τ sig (Elt Ideal)) := (ValueP.ops (F := Ideal)).drop 9

set_option maxRecDepth 16384 in
set_option maxHeartbeats 4000000 in
/-- The result buffer after @main's operations is the last stage of the arguments. -/
theorem result_eq (c : Dev nD) :
    after (ValueP.ops (F := Ideal)) (launchContents m c) (Proc.devRef .tc main_v62)
      = ReadP.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  have hsplit : (ValueP.ops (F := Ideal)) = pre ++ post := (List.take_append_drop 9 _).symm
  rw [hsplit, after_append (Val := Ideal)]
  generalize hW : after pre (launchContents m c) = W
  have h5 : W (Proc.devRef .tc main_v5) = ReadP.val_main_v5 (F := Ideal) (m ((c.tc : Thread nD τ).loc main_arg0)) (m ((c.tc : Thread nD τ).loc main_arg1)) := by
    subst hW; simp only [pre, ValueP.ops, List.take_succ_cons, List.take_zero]; after_results_simp; rfl
  have h6 : W (Proc.devRef .tc main_v6) = ReadP.val_main_v6 (F := Ideal) (m ((c.tc : Thread nD τ).loc main_arg0)) (m ((c.tc : Thread nD τ).loc main_arg1)) := by
    subst hW; simp only [pre, ValueP.ops, List.take_succ_cons, List.take_zero]; after_results_simp; rfl
  have hA2 : W (Proc.devRef .tc main_arg2) = m ((c.tc : Thread nD τ).loc main_arg2) := by
    subst hW; simp only [pre, ValueP.ops, List.take_succ_cons, List.take_zero]; after_results_simp <;> rfl
  have hA3 : W (Proc.devRef .tc main_arg3) = m ((c.tc : Thread nD τ).loc main_arg3) := by
    subst hW; simp only [pre, ValueP.ops, List.take_succ_cons, List.take_zero]; after_results_simp <;> rfl
  have hA4 : W (Proc.devRef .tc main_arg4) = m ((c.tc : Thread nD τ).loc main_arg4) := by
    subst hW; simp only [pre, ValueP.ops, List.take_succ_cons, List.take_zero]; after_results_simp <;> rfl
  have hA5 : W (Proc.devRef .tc main_arg5) = m ((c.tc : Thread nD τ).loc main_arg5) := by
    subst hW; simp only [pre, ValueP.ops, List.take_succ_cons, List.take_zero]; after_results_simp <;> rfl
  have hA6 : W (Proc.devRef .tc main_arg6) = m ((c.tc : Thread nD τ).loc main_arg6) := by
    subst hW; simp only [pre, ValueP.ops, List.take_succ_cons, List.take_zero]; after_results_simp <;> rfl
  have hA7 : W (Proc.devRef .tc main_arg7) = m ((c.tc : Thread nD τ).loc main_arg7) := by
    subst hW; simp only [pre, ValueP.ops, List.take_succ_cons, List.take_zero]; after_results_simp <;> rfl
  have hA8 : W (Proc.devRef .tc main_arg8) = m ((c.tc : Thread nD τ).loc main_arg8) := by
    subst hW; simp only [pre, ValueP.ops, List.take_succ_cons, List.take_zero]; after_results_simp <;> rfl
  have hA9 : W (Proc.devRef .tc main_arg9) = m ((c.tc : Thread nD τ).loc main_arg9) := by
    subst hW; simp only [pre, ValueP.ops, List.take_succ_cons, List.take_zero]; after_results_simp <;> rfl
  have hA10 : W (Proc.devRef .tc main_arg10) = m ((c.tc : Thread nD τ).loc main_arg10) := by
    subst hW; simp only [pre, ValueP.ops, List.take_succ_cons, List.take_zero]; after_results_simp <;> rfl
  have hA11 : W (Proc.devRef .tc main_arg11) = m ((c.tc : Thread nD τ).loc main_arg11) := by
    subst hW; simp only [pre, ValueP.ops, List.take_succ_cons, List.take_zero]; after_results_simp <;> rfl
  have hA12 : W (Proc.devRef .tc main_arg12) = m ((c.tc : Thread nD τ).loc main_arg12) := by
    subst hW; simp only [pre, ValueP.ops, List.take_succ_cons, List.take_zero]; after_results_simp <;> rfl
  have hA13 : W (Proc.devRef .tc main_arg13) = m ((c.tc : Thread nD τ).loc main_arg13) := by
    subst hW; simp only [pre, ValueP.ops, List.take_succ_cons, List.take_zero]; after_results_simp <;> rfl
  have hA14 : W (Proc.devRef .tc main_arg14) = m ((c.tc : Thread nD τ).loc main_arg14) := by
    subst hW; simp only [pre, ValueP.ops, List.take_succ_cons, List.take_zero]; after_results_simp <;> rfl
  have hA15 : W (Proc.devRef .tc main_arg15) = m ((c.tc : Thread nD τ).loc main_arg15) := by
    subst hW; simp only [pre, ValueP.ops, List.take_succ_cons, List.take_zero]; after_results_simp <;> rfl
  have hA16 : W (Proc.devRef .tc main_arg16) = m ((c.tc : Thread nD τ).loc main_arg16) := by
    subst hW; simp only [pre, ValueP.ops, List.take_succ_cons, List.take_zero]; after_results_simp <;> rfl
  have hA17 : W (Proc.devRef .tc main_arg17) = m ((c.tc : Thread nD τ).loc main_arg17) := by
    subst hW; simp only [pre, ValueP.ops, List.take_succ_cons, List.take_zero]; after_results_simp <;> rfl
  simp only [post, ValueP.ops, List.drop_succ_cons, List.drop_zero]
  after_results_simp
  rw [h5, h6, hA2, hA3, hA4, hA5, hA6, hA7, hA8, hA9, hA10, hA11, hA12, hA13, hA14, hA15, hA16, hA17]
  rfl

/-! ## The arguments end as launched: no operation writes one -/

set_option maxHeartbeats 4000000 in
theorem kept_main_arg0 (c : Dev nD) :
    after (ValueP.ops (F := Ideal)) (launchContents m c) (Proc.devRef .tc main_arg0) = m ((c.tc : Thread nD τ).loc main_arg0) := by
  after_results_simp <;> rfl
set_option maxHeartbeats 4000000 in
theorem kept_main_arg1 (c : Dev nD) :
    after (ValueP.ops (F := Ideal)) (launchContents m c) (Proc.devRef .tc main_arg1) = m ((c.tc : Thread nD τ).loc main_arg1) := by
  after_results_simp <;> rfl
set_option maxHeartbeats 4000000 in
theorem kept_main_arg2 (c : Dev nD) :
    after (ValueP.ops (F := Ideal)) (launchContents m c) (Proc.devRef .tc main_arg2) = m ((c.tc : Thread nD τ).loc main_arg2) := by
  after_results_simp <;> rfl
set_option maxHeartbeats 4000000 in
theorem kept_main_arg3 (c : Dev nD) :
    after (ValueP.ops (F := Ideal)) (launchContents m c) (Proc.devRef .tc main_arg3) = m ((c.tc : Thread nD τ).loc main_arg3) := by
  after_results_simp <;> rfl
set_option maxHeartbeats 4000000 in
theorem kept_main_arg4 (c : Dev nD) :
    after (ValueP.ops (F := Ideal)) (launchContents m c) (Proc.devRef .tc main_arg4) = m ((c.tc : Thread nD τ).loc main_arg4) := by
  after_results_simp <;> rfl
set_option maxHeartbeats 4000000 in
theorem kept_main_arg5 (c : Dev nD) :
    after (ValueP.ops (F := Ideal)) (launchContents m c) (Proc.devRef .tc main_arg5) = m ((c.tc : Thread nD τ).loc main_arg5) := by
  after_results_simp <;> rfl
set_option maxHeartbeats 4000000 in
theorem kept_main_arg6 (c : Dev nD) :
    after (ValueP.ops (F := Ideal)) (launchContents m c) (Proc.devRef .tc main_arg6) = m ((c.tc : Thread nD τ).loc main_arg6) := by
  after_results_simp <;> rfl
set_option maxHeartbeats 4000000 in
theorem kept_main_arg7 (c : Dev nD) :
    after (ValueP.ops (F := Ideal)) (launchContents m c) (Proc.devRef .tc main_arg7) = m ((c.tc : Thread nD τ).loc main_arg7) := by
  after_results_simp <;> rfl
set_option maxHeartbeats 4000000 in
theorem kept_main_arg8 (c : Dev nD) :
    after (ValueP.ops (F := Ideal)) (launchContents m c) (Proc.devRef .tc main_arg8) = m ((c.tc : Thread nD τ).loc main_arg8) := by
  after_results_simp <;> rfl
set_option maxHeartbeats 4000000 in
theorem kept_main_arg9 (c : Dev nD) :
    after (ValueP.ops (F := Ideal)) (launchContents m c) (Proc.devRef .tc main_arg9) = m ((c.tc : Thread nD τ).loc main_arg9) := by
  after_results_simp <;> rfl
set_option maxHeartbeats 4000000 in
theorem kept_main_arg10 (c : Dev nD) :
    after (ValueP.ops (F := Ideal)) (launchContents m c) (Proc.devRef .tc main_arg10) = m ((c.tc : Thread nD τ).loc main_arg10) := by
  after_results_simp <;> rfl
set_option maxHeartbeats 4000000 in
theorem kept_main_arg11 (c : Dev nD) :
    after (ValueP.ops (F := Ideal)) (launchContents m c) (Proc.devRef .tc main_arg11) = m ((c.tc : Thread nD τ).loc main_arg11) := by
  after_results_simp <;> rfl
set_option maxHeartbeats 4000000 in
theorem kept_main_arg12 (c : Dev nD) :
    after (ValueP.ops (F := Ideal)) (launchContents m c) (Proc.devRef .tc main_arg12) = m ((c.tc : Thread nD τ).loc main_arg12) := by
  after_results_simp <;> rfl
set_option maxHeartbeats 4000000 in
theorem kept_main_arg13 (c : Dev nD) :
    after (ValueP.ops (F := Ideal)) (launchContents m c) (Proc.devRef .tc main_arg13) = m ((c.tc : Thread nD τ).loc main_arg13) := by
  after_results_simp <;> rfl
set_option maxHeartbeats 4000000 in
theorem kept_main_arg14 (c : Dev nD) :
    after (ValueP.ops (F := Ideal)) (launchContents m c) (Proc.devRef .tc main_arg14) = m ((c.tc : Thread nD τ).loc main_arg14) := by
  after_results_simp <;> rfl
set_option maxHeartbeats 4000000 in
theorem kept_main_arg15 (c : Dev nD) :
    after (ValueP.ops (F := Ideal)) (launchContents m c) (Proc.devRef .tc main_arg15) = m ((c.tc : Thread nD τ).loc main_arg15) := by
  after_results_simp <;> rfl
set_option maxHeartbeats 4000000 in
theorem kept_main_arg16 (c : Dev nD) :
    after (ValueP.ops (F := Ideal)) (launchContents m c) (Proc.devRef .tc main_arg16) = m ((c.tc : Thread nD τ).loc main_arg16) := by
  after_results_simp <;> rfl
set_option maxHeartbeats 4000000 in
theorem kept_main_arg17 (c : Dev nD) :
    after (ValueP.ops (F := Ideal)) (launchContents m c) (Proc.devRef .tc main_arg17) = m ((c.tc : Thread nD τ).loc main_arg17) := by
  after_results_simp <;> rfl

end Cert.ReferenceIdeal.Result

end
-- ==== Proof.RefValue.lean ====
/-
  The reference's result at one (query `q`, memory `k`) pair, as the scalar formula `Forms.pairR` of the argument
  arrays. The pair is row `96 q + k` of the [4608, 192, 192] score array (scores `∑ d, memory (k, s, d) * target (q, t, d)`
  at `(s, t)`); its two maxima, over `s` and over `t`, are concatenated and reshaped into rows `2 (96 q + k)` and
  `2 (96 q + k) + 1` of a [9216, 192] array; each row goes through the MLP (mean subtracted, scaled, offset; first layer;
  again; relu; second layer), the two values are summed from zero, and the last batch norm is applied.
-/
import proofs.«133369_j44135083933763_2_alg».proof.Proof.RefReadPatched
import proofs.«133369_j44135083933763_2_alg».proof.Proof.Forms
import Idealize.ShloMosaic.Lib.ValueLayout

set_option maxRecDepth 16384

noncomputable section

open scoped BigOperators

namespace Cert.ReferenceIdeal.At

open Cert.ReferenceIdeal Cert.ReferenceIdeal.Gen Cert.ReferenceIdeal.ReadP Cert.Forms
open Idealize.ShloMosaic Idealize.ShloMosaic.TcCoe Idealize.ShloMosaic.ValueIdx

/-- An index of a one-entry array is the one index. -/
theorem one_idx (j : S1.Idx) : j = ix1 (0 : Fin 1) := by
  funext a
  match a with
  | ⟨0, _⟩ => exact Fin.ext (by have h1 : (j 0).val < 1 := (j 0).isLt; show (j 0).val = 0; omega)

/-! ## The parameters, read through their broadcasts -/

theorem read_mean1 (x8 : (⟨S1, .f32⟩ : BufTy).Contents (Elt Ideal)) (i : S9216x192.Idx) : val_main_v10 (F := Ideal) x8 i = x8 (ix1 0) := by
  rw [val_main_v10_apply, val_main_v9_apply]; exact congrArg x8 (one_idx _)
theorem read_off1 (x7 : (⟨S1, .f32⟩ : BufTy).Contents (Elt Ideal)) (i : S9216x192.Idx) : val_main_v20 (F := Ideal) x7 i = x7 (ix1 0) := by
  rw [val_main_v20_apply, val_main_v19_apply]; exact congrArg x7 (one_idx _)
theorem read_scale1 (x6 : (⟨S1, .f32⟩ : BufTy).Contents (Elt Ideal)) (x9 : (⟨S1, .f32⟩ : BufTy).Contents (Elt Ideal)) (i : S9216x192.Idx) :
    val_main_v17 (F := Ideal) x6 x9 i = scale (x6 (ix1 0)) (x9 (ix1 0)) epsW := by
  rw [val_main_v17_apply, val_main_v16_apply, val_main_v15_apply, val_main_v14_apply, val_main_v13_apply,
    val_main_v12_apply, val_main_cst_1_apply, one_idx (idx_main_v16 (idx_main_v17 i))]
  rfl
theorem read_w2 (x2 : (⟨S2048x192, .f32⟩ : BufTy).Contents (Elt Ideal)) (s : Fin 192) (f : Fin 2048) : val_main_v22 (F := Ideal) x2 (ix2 s f) = x2 (ix2 f s) := by
  rw [val_main_v22_apply]
  exact congrArg x2 (funext fun a => Fin.ext (by match a with | ⟨0, _⟩ => rfl | ⟨1, _⟩ => rfl))
theorem read_c2 (x3 : (⟨S2048, .f32⟩ : BufTy).Contents (Elt Ideal)) (r : Fin 9216) (f : Fin 2048) : val_main_v25 (F := Ideal) x3 (ix2 r f) = x3 (ix1 f) := by
  rw [val_main_v25_apply, val_main_v24_apply]
  exact congrArg x3 (funext fun a => Fin.ext (by match a with | ⟨0, _⟩ => rfl))
theorem read_mean2 (x12 : (⟨S2048, .f32⟩ : BufTy).Contents (Elt Ideal)) (r : Fin 9216) (f : Fin 2048) : val_main_v28 (F := Ideal) x12 (ix2 r f) = x12 (ix1 f) := by
  rw [val_main_v28_apply, val_main_v27_apply]
  exact congrArg x12 (funext fun a => Fin.ext (by match a with | ⟨0, _⟩ => rfl))
theorem read_off2 (x11 : (⟨S2048, .f32⟩ : BufTy).Contents (Elt Ideal)) (r : Fin 9216) (f : Fin 2048) : val_main_v38 (F := Ideal) x11 (ix2 r f) = x11 (ix1 f) := by
  rw [val_main_v38_apply, val_main_v37_apply]
  exact congrArg x11 (funext fun a => Fin.ext (by match a with | ⟨0, _⟩ => rfl))
theorem read_scale2 (x10 : (⟨S2048, .f32⟩ : BufTy).Contents (Elt Ideal)) (x13 : (⟨S2048, .f32⟩ : BufTy).Contents (Elt Ideal)) (r : Fin 9216) (f : Fin 2048) :
    val_main_v35 (F := Ideal) x10 x13 (ix2 r f) = scale (x10 (ix1 f)) (x13 (ix1 f)) epsW := by
  rw [val_main_v35_apply, val_main_v34_apply, val_main_v33_apply, val_main_v32_apply, val_main_v31_apply,
    val_main_v30_apply, val_main_cst_2_apply,
    show idx_main_v34 (idx_main_v35 (ix2 r f)) = ix1 f from funext fun a => Fin.ext (by match a with | ⟨0, _⟩ => rfl)]
  rfl
theorem read_zero (i : S9216x2048.Idx) : val_main_call0_v0 (F := Ideal) i = zeroW := by
  rw [val_main_call0_v0_apply, val_main_call0_cst_apply]; rfl
theorem read_w3 (x4 : (⟨S1x2048, .f32⟩ : BufTy).Contents (Elt Ideal)) (f : Fin 2048) : val_main_v41 (F := Ideal) x4 (ix2 f (0 : Fin 1)) = x4 (ix2 (0 : Fin 1) f) := by
  rw [val_main_v41_apply]
  exact congrArg x4 (funext fun a => Fin.ext (by match a with | ⟨0, _⟩ => rfl | ⟨1, _⟩ => rfl))
theorem read_c3 (x5 : (⟨S1, .f32⟩ : BufTy).Contents (Elt Ideal)) (i : S9216x1.Idx) : val_main_v44 (F := Ideal) x5 i = x5 (ix1 0) := by
  rw [val_main_v44_apply, val_main_v43_apply]; exact congrArg x5 (one_idx _)
theorem read_mean3 (x16 : (⟨S1, .f32⟩ : BufTy).Contents (Elt Ideal)) (i : S4608x1.Idx) : val_main_v50 (F := Ideal) x16 i = x16 (ix1 0) := by
  rw [val_main_v50_apply, val_main_v49_apply]; exact congrArg x16 (one_idx _)
theorem read_off3 (x15 : (⟨S1, .f32⟩ : BufTy).Contents (Elt Ideal)) (i : S4608x1.Idx) : val_main_v60 (F := Ideal) x15 i = x15 (ix1 0) := by
  rw [val_main_v60_apply, val_main_v59_apply]; exact congrArg x15 (one_idx _)
theorem read_scale3 (x14 : (⟨S1, .f32⟩ : BufTy).Contents (Elt Ideal)) (x17 : (⟨S1, .f32⟩ : BufTy).Contents (Elt Ideal)) (i : S4608x1.Idx) :
    val_main_v57 (F := Ideal) x14 x17 i = scale (x14 (ix1 0)) (x17 (ix1 0)) epsW := by
  rw [val_main_v57_apply, val_main_v56_apply, val_main_v55_apply, val_main_v54_apply, val_main_v53_apply,
    val_main_v52_apply, val_main_cst_4_apply, one_idx (idx_main_v56 (idx_main_v57 i))]
  rfl

/-! ## The scores and the two pooled rows -/

/-- Row `96 q + k` of the score array. -/
def pairRow (q : Fin 48) (k : Fin 96) : Fin 4608 := ⟨q.val * 96 + k.val, by have := q.isLt; have := k.isLt; omega⟩

/-- Row `2 R + p` of the interleaved array. -/
def row2 (R : Fin 4608) (p : Fin 2) : Fin 9216 := ⟨R.val * 2 + p.val, by have := R.isLt; have := p.isLt; omega⟩

/-- The score of the pair at memory position `s` and target position `t`. -/
theorem score_read (x0 : (⟨S48x24x8x512, .f32⟩ : BufTy).Contents (Elt Ideal)) (x1 : (⟨S96x24x8x512, .f32⟩ : BufTy).Contents (Elt Ideal)) (q : Fin 48) (k : Fin 96) (s t : Fin 192) :
    val_main_v4 (F := Ideal) x0 x1 (ix3 (pairRow q k) s t)
      = ∑ d : Fin 512, val_main_v1 (F := Ideal) x1 (ix3 k s d) * val_main_v0 (F := Ideal) x0 (ix3 q t d) := by
  rw [val_main_v4_apply, val_main_v3_apply, val_main_v2_apply]
  refine Finset.sum_congr rfl fun d _ => ?_
  refine congrArg₂ (· * ·) (congrArg _ ?_) (congrArg _ ?_)
  · funext a; apply Fin.ext
    match a with
    | ⟨0, _⟩ => show (((q.val * 96 + k.val) * 192 + s.val) * 192 + t.val) / 36864 % 96 = k.val; omega
    | ⟨1, _⟩ => show (((q.val * 96 + k.val) * 192 + s.val) * 192 + t.val) / 192 % 192 = s.val; omega
    | ⟨2, _⟩ => rfl
  · funext a; apply Fin.ext
    match a with
    | ⟨0, _⟩ => show (((q.val * 96 + k.val) * 192 + s.val) * 192 + t.val) / 3538944 = q.val; omega
    | ⟨1, _⟩ => show (((q.val * 96 + k.val) * 192 + s.val) * 192 + t.val) % 192 = t.val; omega
    | ⟨2, _⟩ => rfl

/-- The maximum over memory positions, at target position `t`. -/
theorem poolS_read (x0 : (⟨S48x24x8x512, .f32⟩ : BufTy).Contents (Elt Ideal)) (x1 : (⟨S96x24x8x512, .f32⟩ : BufTy).Contents (Elt Ideal)) (q : Fin 48) (k : Fin 96) (t : Fin 192) :
    val_main_v5 (F := Ideal) x0 x1 (ix2 (pairRow q k) t)
      = (Finset.univ : Finset (Fin 192)).fold max negInfW
          (fun s => ∑ d : Fin 512, val_main_v1 (F := Ideal) x1 (ix3 k s d) * val_main_v0 (F := Ideal) x0 (ix3 q t d)) := by
  have hred : S4608x192x192.Reduces [1] S4608x192 := by decide
  unfold val_main_v5
  refine (Host.reduce_eq_fold_single FloatOps.maximumf _ _ _ hred _ _).trans ?_
  show (Finset.univ : Finset (Fin 192)).fold max negInfW
    (fun s => val_main_v4 (F := Ideal) x0 x1 (hred.lift (ix2 (pairRow q k) t) s)) = _
  refine congrArg (Finset.fold max negInfW · Finset.univ) (funext fun s => ?_)
  rw [show hred.lift (ix2 (pairRow q k) t) s = ix3 (pairRow q k) s t from
    funext fun c => Fin.ext (by match c with | ⟨0, _⟩ => rfl | ⟨1, _⟩ => rfl | ⟨2, _⟩ => rfl)]
  exact score_read x0 x1 q k s t

/-- The maximum over target positions, at memory position `s`. -/
theorem poolT_read (x0 : (⟨S48x24x8x512, .f32⟩ : BufTy).Contents (Elt Ideal)) (x1 : (⟨S96x24x8x512, .f32⟩ : BufTy).Contents (Elt Ideal)) (q : Fin 48) (k : Fin 96) (s : Fin 192) :
    val_main_v6 (F := Ideal) x0 x1 (ix2 (pairRow q k) s)
      = (Finset.univ : Finset (Fin 192)).fold max negInfW
          (fun t => ∑ d : Fin 512, val_main_v1 (F := Ideal) x1 (ix3 k s d) * val_main_v0 (F := Ideal) x0 (ix3 q t d)) := by
  have hred : S4608x192x192.Reduces [2] S4608x192 := by decide
  unfold val_main_v6
  refine (Host.reduce_eq_fold_single FloatOps.maximumf _ _ _ hred _ _).trans ?_
  show (Finset.univ : Finset (Fin 192)).fold max negInfW
    (fun t => val_main_v4 (F := Ideal) x0 x1 (hred.lift (ix2 (pairRow q k) s) t)) = _
  refine congrArg (Finset.fold max negInfW · Finset.univ) (funext fun t => ?_)
  rw [show hred.lift (ix2 (pairRow q k) s) t = ix3 (pairRow q k) s t from
    funext fun c => Fin.ext (by match c with | ⟨0, _⟩ => rfl | ⟨1, _⟩ => rfl | ⟨2, _⟩ => rfl)]
  exact score_read x0 x1 q k s t

/-- The even row of a pair: the first pooled array's row. -/
theorem row0_read (x0 : (⟨S48x24x8x512, .f32⟩ : BufTy).Contents (Elt Ideal)) (x1 : (⟨S96x24x8x512, .f32⟩ : BufTy).Contents (Elt Ideal)) (R : Fin 4608) (t : Fin 192) :
    val_main_v8 (F := Ideal) x0 x1 (ix2 (row2 R 0) t) = val_main_v5 (F := Ideal) x0 x1 (ix2 R t) := by
  have hR := R.isLt; have ht := t.isLt
  have key := concatenate_pair_apply_left (t := S4608x384) (s₁ := S4608x192) (s₂ := S4608x192) (1 : Fin 2)
    (val_main_v5 (F := Ideal) x0 x1) (val_main_v6 (F := Ideal) x0 x1) concatenates_S4608x192_S4608x192_S4608x384_d1
    (idx_main_v8 (ix2 (row2 R 0) t)) rfl (ix2 R t) (fun b => by
      match b with
      | ⟨0, _⟩ => show R.val = ((R.val * 2 + 0) * 192 + t.val) / 384; omega
      | ⟨1, _⟩ => show t.val = ((R.val * 2 + 0) * 192 + t.val) % 384; omega)
  rw [val_main_v8_apply]
  exact key

/-- The odd row of a pair: the second pooled array's row. -/
theorem row1_read (x0 : (⟨S48x24x8x512, .f32⟩ : BufTy).Contents (Elt Ideal)) (x1 : (⟨S96x24x8x512, .f32⟩ : BufTy).Contents (Elt Ideal)) (R : Fin 4608) (s : Fin 192) :
    val_main_v8 (F := Ideal) x0 x1 (ix2 (row2 R 1) s) = val_main_v6 (F := Ideal) x0 x1 (ix2 R s) := by
  have hR := R.isLt; have hs := s.isLt
  have key := concatenate_pair_apply_right (t := S4608x384) (s₁ := S4608x192) (s₂ := S4608x192) (1 : Fin 2)
    (val_main_v5 (F := Ideal) x0 x1) (val_main_v6 (F := Ideal) x0 x1) concatenates_S4608x192_S4608x192_S4608x384_d1
    (idx_main_v8 (ix2 (row2 R 1) s)) rfl rfl (ix2 R s) (fun b hb => by
      match b with
      | ⟨0, _⟩ => show R.val = ((R.val * 2 + 1) * 192 + s.val) / 384; omega
      | ⟨1, _⟩ => exact absurd rfl hb)
    (by show s.val + 192 = ((R.val * 2 + 1) * 192 + s.val) % 384; omega)
  rw [val_main_v8_apply]
  exact key

/-! ## One row through the MLP -/

theorem row_read (x0 : (⟨S48x24x8x512, .f32⟩ : BufTy).Contents (Elt Ideal)) (x1 : (⟨S96x24x8x512, .f32⟩ : BufTy).Contents (Elt Ideal)) (x2 : (⟨S2048x192, .f32⟩ : BufTy).Contents (Elt Ideal)) (x3 : (⟨S2048, .f32⟩ : BufTy).Contents (Elt Ideal)) (x4 : (⟨S1x2048, .f32⟩ : BufTy).Contents (Elt Ideal)) (x5 : (⟨S1, .f32⟩ : BufTy).Contents (Elt Ideal)) (x6 : (⟨S1, .f32⟩ : BufTy).Contents (Elt Ideal)) (x7 : (⟨S1, .f32⟩ : BufTy).Contents (Elt Ideal)) (x8 : (⟨S1, .f32⟩ : BufTy).Contents (Elt Ideal)) (x9 : (⟨S1, .f32⟩ : BufTy).Contents (Elt Ideal)) (x10 : (⟨S2048, .f32⟩ : BufTy).Contents (Elt Ideal)) (x11 : (⟨S2048, .f32⟩ : BufTy).Contents (Elt Ideal)) (x12 : (⟨S2048, .f32⟩ : BufTy).Contents (Elt Ideal)) (x13 : (⟨S2048, .f32⟩ : BufTy).Contents (Elt Ideal)) (r : Fin 9216) :
    val_main_v45 (F := Ideal) x0 x1 x2 x3 x4 x5 x6 x7 x8 x9 x10 x11 x12 x13 (ix2 r (0 : Fin 1))
      = brR (fun s f => x2 (ix2 f s)) (fun f => x3 (ix1 f)) (fun f => x4 (ix2 (0 : Fin 1) f)) (x5 (ix1 0)) zeroW
          (x8 (ix1 0)) (scale (x6 (ix1 0)) (x9 (ix1 0)) epsW) (x7 (ix1 0))
          (fun f => x12 (ix1 f)) (fun f => scale (x10 (ix1 f)) (x13 (ix1 f)) epsW) (fun f => x11 (ix1 f))
          (fun s => val_main_v8 (F := Ideal) x0 x1 (ix2 r s)) := by
  rw [val_main_v45_apply, val_main_v42_apply, read_c3]
  unfold brR
  refine congrArg (· + x5 (ix1 0)) (Finset.sum_congr rfl fun f _ => ?_)
  rw [show lidx_main_v42 (ix2 r (0 : Fin 1)) f = ix2 r f from
        funext fun a => Fin.ext (by match a with | ⟨0, _⟩ => rfl | ⟨1, _⟩ => rfl),
    show ridx_main_v42 (ix2 r (0 : Fin 1)) f = ix2 f (0 : Fin 1) from
        funext fun a => Fin.ext (by match a with | ⟨0, _⟩ => rfl | ⟨1, _⟩ => rfl),
    read_w3]
  refine congrArg (· * x4 (ix2 (0 : Fin 1) f)) ?_
  rw [val_main_v40_apply, read_zero, val_main_v39_apply, read_off2, val_main_v36_apply, read_scale2, val_main_v29_apply,
    read_mean2, val_main_v26_apply, read_c2, val_main_v23_apply]
  refine congrArg (fun y => max ((((y + x3 (ix1 f)) - x12 (ix1 f)) * scale (x10 (ix1 f)) (x13 (ix1 f)) epsW) + x11 (ix1 f)) zeroW) ?_
  refine Finset.sum_congr rfl fun s _ => ?_
  rw [show lidx_main_v23 (ix2 r f) s = ix2 r s from
        funext fun a => Fin.ext (by match a with | ⟨0, _⟩ => rfl | ⟨1, _⟩ => rfl),
    show ridx_main_v23 (ix2 r f) s = ix2 s f from
        funext fun a => Fin.ext (by match a with | ⟨0, _⟩ => rfl | ⟨1, _⟩ => rfl),
    read_w2, val_main_v21_apply, read_off1, val_main_v18_apply, read_scale1, val_main_v11_apply, read_mean1]
  rfl

/-! ## The pair's output -/

/-- THE REFERENCE'S RESULT at the pair `(q, k)`. -/
theorem value_at (x0 : (⟨S48x24x8x512, .f32⟩ : BufTy).Contents (Elt Ideal)) (x1 : (⟨S96x24x8x512, .f32⟩ : BufTy).Contents (Elt Ideal)) (x2 : (⟨S2048x192, .f32⟩ : BufTy).Contents (Elt Ideal)) (x3 : (⟨S2048, .f32⟩ : BufTy).Contents (Elt Ideal)) (x4 : (⟨S1x2048, .f32⟩ : BufTy).Contents (Elt Ideal)) (x5 : (⟨S1, .f32⟩ : BufTy).Contents (Elt Ideal)) (x6 : (⟨S1, .f32⟩ : BufTy).Contents (Elt Ideal)) (x7 : (⟨S1, .f32⟩ : BufTy).Contents (Elt Ideal)) (x8 : (⟨S1, .f32⟩ : BufTy).Contents (Elt Ideal)) (x9 : (⟨S1, .f32⟩ : BufTy).Contents (Elt Ideal)) (x10 : (⟨S2048, .f32⟩ : BufTy).Contents (Elt Ideal)) (x11 : (⟨S2048, .f32⟩ : BufTy).Contents (Elt Ideal)) (x12 : (⟨S2048, .f32⟩ : BufTy).Contents (Elt Ideal)) (x13 : (⟨S2048, .f32⟩ : BufTy).Contents (Elt Ideal)) (x14 : (⟨S1, .f32⟩ : BufTy).Contents (Elt Ideal)) (x15 : (⟨S1, .f32⟩ : BufTy).Contents (Elt Ideal)) (x16 : (⟨S1, .f32⟩ : BufTy).Contents (Elt Ideal)) (x17 : (⟨S1, .f32⟩ : BufTy).Contents (Elt Ideal)) (q : Fin 48) (k : Fin 96) :
    val_main_v62 (F := Ideal) x0 x1 x2 x3 x4 x5 x6 x7 x8 x9 x10 x11 x12 x13 x14 x15 x16 x17 (ix2 q k)
      = pairR (val_main_v0 (F := Ideal) x0) (val_main_v1 (F := Ideal) x1) x2 x3 x4 x5 x6 x7 x8 x9 x10 x11 x12 x13 x14 x15 x16 x17 q k := by
  rw [val_main_v62_apply, val_main_v61_apply, read_off3, val_main_v58_apply, read_scale3, val_main_v51_apply, read_mean3,
    val_main_v48_apply, val_main_v47_apply]
  unfold pairR outR
  refine congrArg (fun y => (y - x16 (ix1 0)) * scale (x14 (ix1 0)) (x17 (ix1 0)) epsW + x15 (ix1 0)) ?_
  refine congrArg₂ (· + ·) (by rw [val_main_cst_3_apply]; exact Ideal.ofBits_zero_f32) (Finset.sum_congr rfl fun p _ => ?_)
  rw [val_main_v46_apply,
    show idx_main_v46 (idx_main_v47 (idx_main_v48 (idx_main_v62 (ix2 q k))) p) = ix2 (row2 (pairRow q k) p) (0 : Fin 1) from
      funext fun a => Fin.ext (by
        match a with
        | ⟨0, _⟩ => show ((q.val * 96 + k.val) / 1 * 2 + p.val) / 1 = (q.val * 96 + k.val) * 2 + p.val; omega
        | ⟨1, _⟩ => rfl),
    row_read]
  refine congrArg (brR (fun s f => x2 (ix2 f s)) (fun f => x3 (ix1 f)) (fun f => x4 (ix2 (0 : Fin 1) f)) (x5 (ix1 0)) zeroW (x8 (ix1 0)) (scale (x6 (ix1 0)) (x9 (ix1 0)) epsW) (x7 (ix1 0)) (fun f => x12 (ix1 f)) (fun f => scale (x10 (ix1 f)) (x13 (ix1 f)) epsW) (fun f => x11 (ix1 f))) (funext fun s => ?_)
  match p with
  | ⟨0, _⟩ => exact (row0_read x0 x1 (pairRow q k) s).trans (poolS_read x0 x1 q k s)
  | ⟨1, _⟩ => exact (row1_read x0 x1 (pairRow q k) s).trans (poolT_read x0 x1 q k s)

end Cert.ReferenceIdeal.At

end
-- ==== Proof.Domain.lean ====
/-
  What the precondition gives. Its printed form is one truth value: the conjunction, over the eighteen argument arrays,
  of "every entry's absolute value is below +∞", and then of "every entry of `v + ε` is above 0" for the three
  variance arrays. Used from it: the twelve batch-norm parameter arrays hold real numbers, and each variance plus ε is
  positive — the domain on which the reference's own `g / sqrt (v + ε)` is a number.
-/
import proofs.«133369_j44135083933763_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx
import Idealize.ShloMosaic.Lib.Pipeline.Value

noncomputable section

namespace Cert.Domain

open Idealize.ShloMosaic Idealize.ShloMosaic.ValueIdx Cert.Pre_finite_inputs

instance : Subsingleton S_.Idx := ⟨fun a b => funext fun d => d.elim0⟩

/-- The ε word denotes a real number. -/
theorem eps_real : ∃ e : ℝ, Ideal.ofBits .f32 0x3727C5AC#32 = (e : EReal) := by
  simp [Ideal.ofBits, Ideal.ieee, -EReal.coe_mul]

/-- An extended real whose absolute value is below the +∞ pattern is a real number. -/
theorem real_of_abs_lt (x : EReal) (h : Ideal.cmp .olt (max x (-x)) (Ideal.ofBits .f32 0x7F800000#32) = 1#1) :
    ∃ r : ℝ, x = r := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- "Above the zero pattern" is "positive". -/
theorem pos_of_gt (x : EReal) (h : Ideal.cmp .ogt x (Ideal.ofBits .f32 0x00000000#32) = 1#1) : 0 < x := by
  rw [Ideal.ofBits_zero_f32] at h
  by_contra hn
  simp [Ideal.cmp, hn] at h

/-- A scalar constant broadcast to any shape reads that constant everywhere. -/
theorem splat_read {S : Shape} (hb : S_.BroadcastsInDim S ![]) (w : BitVec 32) (i : S.Idx) :
    broadcastInDim S ![] hb (constant (F := Ideal) S_ .f32 w) i = Ideal.ofBits .f32 w :=
  (broadcastInDim_apply ![] hb _ i ix0 (fun a => a.elim0)).trans rfl

/-- `jnp.all (|a| < +∞)` true: every entry of `a` is a real number. -/
theorem real_of_all {S : Shape} {axes : List (Fin S.rank)} (a : FVec Ideal S .f32) (hb : S_.BroadcastsInDim S ![])
    (hr : S.ReducesTo axes S_) (hu : 0 < S_.numel)
    (e : Host.reduce IntOp.andi (cmpf .olt (Host.absf a) (broadcastInDim S ![] hb (constant S_ .f32 0x7F800000#32)))
      (constantI S_ 1 1#1) hr hu ix0 = 1#1) (i : S.Idx) : ∃ r : ℝ, a i = r := by
  have e1 := Host.reduce_andi_all _ _ hr hu ix0 e i
  refine real_of_abs_lt (a i) ?_
  rw [← splat_read hb 0x7F800000#32 i]
  exact e1

/-- `jnp.all (v + ε > 0)` true: every entry of `v + ε` is positive. -/
theorem pos_of_all {S : Shape} {axes : List (Fin S.rank)} (v : FVec Ideal S .f32) (hb hb' : S_.BroadcastsInDim S ![])
    (hr : S.ReducesTo axes S_) (hu : 0 < S_.numel)
    (e : Host.reduce IntOp.andi (cmpf .ogt (addf v (broadcastInDim S ![] hb (constant S_ .f32 0x3727C5AC#32)))
        (broadcastInDim S ![] hb' (constant S_ .f32 0x00000000#32)))
      (constantI S_ 1 1#1) hr hu ix0 = 1#1) (i : S.Idx) : 0 < v i + Ideal.ofBits .f32 0x3727C5AC#32 := by
  have e1 := Host.reduce_andi_all _ _ hr hu ix0 e i
  refine pos_of_gt _ ?_
  rw [← splat_read hb 0x3727C5AC#32 i, ← splat_read hb' 0x00000000#32 i]
  exact e1

theorem andi_ix0 (a b : IVec S_ 1) : andi a b ix0 = 1#1 ↔ a ix0 = 1#1 ∧ b ix0 = 1#1 := IntOp.andi_eq_one

/-- What is used of the precondition. -/
structure Good (a6 a7 a8 a9 : FVec Ideal S1 .f32) (a10 a11 a12 a13 : FVec Ideal S2048 .f32)
    (a14 a15 a16 a17 : FVec Ideal S1 .f32) : Prop where
  r6 : ∀ i, ∃ r : ℝ, a6 i = r
  r7 : ∀ i, ∃ r : ℝ, a7 i = r
  r8 : ∀ i, ∃ r : ℝ, a8 i = r
  r9 : ∀ i, ∃ r : ℝ, a9 i = r
  r10 : ∀ i, ∃ r : ℝ, a10 i = r
  r11 : ∀ i, ∃ r : ℝ, a11 i = r
  r12 : ∀ i, ∃ r : ℝ, a12 i = r
  r13 : ∀ i, ∃ r : ℝ, a13 i = r
  r14 : ∀ i, ∃ r : ℝ, a14 i = r
  r15 : ∀ i, ∃ r : ℝ, a15 i = r
  r16 : ∀ i, ∃ r : ℝ, a16 i = r
  r17 : ∀ i, ∃ r : ℝ, a17 i = r
  p9 : ∀ i, 0 < a9 i + Ideal.ofBits .f32 0x3727C5AC#32
  p13 : ∀ i, 0 < a13 i + Ideal.ofBits .f32 0x3727C5AC#32
  p17 : ∀ i, 0 < a17 i + Ideal.ofBits .f32 0x3727C5AC#32

theorem good_of_pre [Cert.Pre_finite_inputs.Facts] (a0 : FVec Ideal S48x24x8x512 .f32) (a1 : FVec Ideal S96x24x8x512 .f32) (a2 : FVec Ideal S2048x192 .f32) (a3 : FVec Ideal S2048 .f32) (a4 : FVec Ideal S1x2048 .f32) (a5 : FVec Ideal S1 .f32) (a6 : FVec Ideal S1 .f32) (a7 : FVec Ideal S1 .f32) (a8 : FVec Ideal S1 .f32) (a9 : FVec Ideal S1 .f32) (a10 : FVec Ideal S2048 .f32) (a11 : FVec Ideal S2048 .f32) (a12 : FVec Ideal S2048 .f32) (a13 : FVec Ideal S2048 .f32) (a14 : FVec Ideal S1 .f32) (a15 : FVec Ideal S1 .f32) (a16 : FVec Ideal S1 .f32) (a17 : FVec Ideal S1 .f32)
    (h : fn (F := Ideal) a0 a1 a2 a3 a4 a5 a6 a7 a8 a9 a10 a11 a12 a13 a14 a15 a16 a17 = fun _ => 1#1) : Good a6 a7 a8 a9 a10 a11 a12 a13 a14 a15 a16 a17 := by
  have h0 := congrFun h ix0
  dsimp only [fn, fn_part1, fn_part2, fn_part3, fn_part4, fn_part5, fn_part6] at h0
  simp only [andi_ix0] at h0
  obtain ⟨⟨⟨⟨⟨⟨⟨⟨⟨⟨⟨⟨⟨⟨⟨⟨⟨⟨⟨⟨h_0, h_1⟩, h_2⟩, h_3⟩, h_4⟩, h_5⟩, h_6⟩, h_7⟩, h_8⟩, h_9⟩, h_10⟩, h_11⟩, h_12⟩, h_13⟩, h_14⟩, h_15⟩, h_16⟩, h_17⟩, h_18⟩, h_19⟩, h_20⟩ := h0
  exact {
    r6 := real_of_all a6 _ _ _ h_6, r7 := real_of_all a7 _ _ _ h_7, r8 := real_of_all a8 _ _ _ h_8,
    r9 := real_of_all a9 _ _ _ h_9, r10 := real_of_all a10 _ _ _ h_10, r11 := real_of_all a11 _ _ _ h_11,
    r12 := real_of_all a12 _ _ _ h_12, r13 := real_of_all a13 _ _ _ h_13, r14 := real_of_all a14 _ _ _ h_14,
    r15 := real_of_all a15 _ _ _ h_15, r16 := real_of_all a16 _ _ _ h_16, r17 := real_of_all a17 _ _ _ h_17,
    p9 := pos_of_all a9 _ _ _ _ h_18, p13 := pos_of_all a13 _ _ _ _ h_19, p17 := pos_of_all a17 _ _ _ _ h_20 }

end Cert.Domain

end
-- ==== Proof.lean ====
/-
  The certificate's five claims.

  Both programs compute, for each of 48 queries and 96 memories, one number from the 192 × 192 scores of their positions
  (inner products over 512 features): the maximum over memory positions for each target position, and the maximum over
  target positions for each memory position, each run through the same two-layer MLP with three eval-mode batch norms,
  the two values added, and the last batch norm applied. The kernel does it in two pipelines (scores and maxima, slab by
  slab over the memories; the MLP, 768 rows at a time) around host reshapes, with each batch norm's mean folded into a
  shift; the reference does it as whole-array operations, interleaving the two pooled rows and subtracting each mean
  first. On the extended reals the two agree index by index once each batch norm's parameters are real numbers and each
  variance plus ε is positive (where the scale `g / sqrt (v + ε)` is a real number): `(x - m) * s + b = x * s + (b - m * s)`
  for real `m`, `s`, `b` and any `x`. The precondition supplies exactly that.

  The frames of the two kernel programs are their frame certificates; the reference's frame is its run with every
  argument read back to its launch contents; the idealization rewrote nothing, so `preserves` is trivial.
-/
import proofs.«133369_j44135083933763_2_alg».proof.Defs
import proofs.«133369_j44135083933763_2_alg».proof.Proof.Gen.Kernel
import proofs.«133369_j44135083933763_2_alg».proof.Proof.Gen.Kernel.Frame
import proofs.«133369_j44135083933763_2_alg».proof.Proof.Gen.KernelIdeal
import proofs.«133369_j44135083933763_2_alg».proof.Proof.Gen.KernelIdeal.Frame
import proofs.«133369_j44135083933763_2_alg».proof.Proof.Gen.ReferenceIdeal
import proofs.«133369_j44135083933763_2_alg».proof.Proof.Gen.Pre_finite_inputs
import proofs.«133369_j44135083933763_2_alg».proof.Proof.KernelResultRun
import proofs.«133369_j44135083933763_2_alg».proof.Proof.KernelValue
import proofs.«133369_j44135083933763_2_alg».proof.Proof.RefResult
import proofs.«133369_j44135083933763_2_alg».proof.Proof.RefValue
import proofs.«133369_j44135083933763_2_alg».proof.Proof.Domain
import Idealize.ShloMosaic.Adequacy
import Idealize.ShloMosaic.Init

set_option maxRecDepth 16384

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference runs, and each argument's buffer ends at what the fold of its operations leaves there: its launch
    contents, since no operation writes an argument. -/
theorem frame_reference : Cert.frame_ReferenceIdeal := fun m ρ _ =>
  (θ_run Cert.ReferenceIdeal.defs _ _).mono (fun r h c =>
    ⟨(h c _).trans (Cert.ReferenceIdeal.Result.kept_main_arg0 m c),
     (h c _).trans (Cert.ReferenceIdeal.Result.kept_main_arg1 m c),
     (h c _).trans (Cert.ReferenceIdeal.Result.kept_main_arg2 m c),
     (h c _).trans (Cert.ReferenceIdeal.Result.kept_main_arg3 m c),
     (h c _).trans (Cert.ReferenceIdeal.Result.kept_main_arg4 m c),
     (h c _).trans (Cert.ReferenceIdeal.Result.kept_main_arg5 m c),
     (h c _).trans (Cert.ReferenceIdeal.Result.kept_main_arg6 m c),
     (h c _).trans (Cert.ReferenceIdeal.Result.kept_main_arg7 m c),
     (h c _).trans (Cert.ReferenceIdeal.Result.kept_main_arg8 m c),
     (h c _).trans (Cert.ReferenceIdeal.Result.kept_main_arg9 m c),
     (h c _).trans (Cert.ReferenceIdeal.Result.kept_main_arg10 m c),
     (h c _).trans (Cert.ReferenceIdeal.Result.kept_main_arg11 m c),
     (h c _).trans (Cert.ReferenceIdeal.Result.kept_main_arg12 m c),
     (h c _).trans (Cert.ReferenceIdeal.Result.kept_main_arg13 m c),
     (h c _).trans (Cert.ReferenceIdeal.Result.kept_main_arg14 m c),
     (h c _).trans (Cert.ReferenceIdeal.Result.kept_main_arg15 m c),
     (h c _).trans (Cert.ReferenceIdeal.Result.kept_main_arg16 m c),
     (h c _).trans (Cert.ReferenceIdeal.Result.kept_main_arg17 m c)⟩)
    (Cert.ReferenceIdeal.ValueP.run_raw (F := Ideal) m ρ)

theorem preserves : Cert.preserves_Kernel_KernelIdeal := trivial

/-- Both runs end; the kernel's result is `Fold.value` of its arguments (the fold through @main), the reference's is
    its last stage of its own; read at a pair `(q, k)` they are `Forms.pairK` and `Forms.pairR` of arguments that agree,
    which are equal on the precondition's domain. -/
theorem algebraic : Cert.algebraic_KernelIdeal_ReferenceIdeal := by
  intro m ρ m' ρ' hpre hagree
  refine ⟨fun c => Cert.KernelIdeal.Fold.value m c, ?_, ?_⟩
  · exact (θ_run Cert.KernelIdeal.defs _ _).mono
      (fun r h c => ⟨((h c).1).trans (Cert.KernelIdeal.Fold.result_eq m ρ c), (h c).2⟩)
      (Cert.KernelIdeal.ResultRun.run_result m ρ)
  · refine (θ_run Cert.ReferenceIdeal.defs _ _).mono (fun r h c => ⟨?_,
      (h c _).trans (Cert.ReferenceIdeal.Result.kept_main_arg0 m' c),
      (h c _).trans (Cert.ReferenceIdeal.Result.kept_main_arg1 m' c),
      (h c _).trans (Cert.ReferenceIdeal.Result.kept_main_arg2 m' c),
      (h c _).trans (Cert.ReferenceIdeal.Result.kept_main_arg3 m' c),
      (h c _).trans (Cert.ReferenceIdeal.Result.kept_main_arg4 m' c),
      (h c _).trans (Cert.ReferenceIdeal.Result.kept_main_arg5 m' c),
      (h c _).trans (Cert.ReferenceIdeal.Result.kept_main_arg6 m' c),
      (h c _).trans (Cert.ReferenceIdeal.Result.kept_main_arg7 m' c),
      (h c _).trans (Cert.ReferenceIdeal.Result.kept_main_arg8 m' c),
      (h c _).trans (Cert.ReferenceIdeal.Result.kept_main_arg9 m' c),
      (h c _).trans (Cert.ReferenceIdeal.Result.kept_main_arg10 m' c),
      (h c _).trans (Cert.ReferenceIdeal.Result.kept_main_arg11 m' c),
      (h c _).trans (Cert.ReferenceIdeal.Result.kept_main_arg12 m' c),
      (h c _).trans (Cert.ReferenceIdeal.Result.kept_main_arg13 m' c),
      (h c _).trans (Cert.ReferenceIdeal.Result.kept_main_arg14 m' c),
      (h c _).trans (Cert.ReferenceIdeal.Result.kept_main_arg15 m' c),
      (h c _).trans (Cert.ReferenceIdeal.Result.kept_main_arg16 m' c),
      (h c _).trans (Cert.ReferenceIdeal.Result.kept_main_arg17 m' c)⟩)
      (Cert.ReferenceIdeal.ValueP.run_raw (F := Ideal) m' ρ')
    refine (h c _).trans ((Cert.ReferenceIdeal.Result.result_eq m' c).trans ?_)
    obtain ⟨e0, e1, e2, e3, e4, e5, e6, e7, e8, e9, e10, e11, e12, e13, e14, e15, e16, e17⟩ := hagree c
    have good := Cert.Domain.good_of_pre _ _ _ _ _ _ _ _ _ _ _ _ _ _ _ _ _ _ (hpre c)
    funext i
    obtain ⟨q, k, rfl⟩ : ∃ (q : Fin 48) (k : Fin 96), i = ix2 q k := ⟨i 0, i 1, eq_ix2 i⟩
    rw [e0, e1, e2, e3, e4, e5, e6, e7, e8, e9, e10, e11, e12, e13, e14, e15, e16, e17]
    refine (Cert.ReferenceIdeal.At.value_at _ _ _ _ _ _ _ _ _ _ _ _ _ _ _ _ _ _ q k).trans ?_
    refine Eq.trans ?_ (Cert.KernelIdeal.At.value_at m c q k).symm
    exact (Cert.Forms.pairK_eq_pairR Cert.Domain.eps_real good.r6 good.r7 good.r8 good.r9 good.r10 good.r11 good.r12
      good.r13 good.r14 good.r15 good.r16 good.r17 good.p9 good.p13 good.p17 q k).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
